-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x40 .f32) (main_arg11 : FVec F S40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x40 .f32 := Host.absf main_arg10
  let main_cst_16 : FVec F S_ .f32 := constant S_ .f32 0x7F800000#32
  let main_v45 : FVec F S64x40 .f32 := broadcastInDim S64x40 ![] bcast_S_S64x40 main_cst_16
  let main_v46 : IVec S64x40 1 := cmpf .olt main_v44 main_v45
  let main_c_17 : IVec S_ 1 := constantI S_ 1 1#1
  let main_v47 : IVec S_ 1 := (fun x v => Host.reduce IntOp.andi x v reducesTo_S64x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S4000x64 : Shape := ⟨2, ![4000, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 110
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S1x64, .f32⟩
  | .hbm, ⟨30, _⟩ => ⟨S1x64, .f32⟩
  | .hbm, ⟨31, _⟩ => ⟨S100000x64, .f32⟩
  | .hbm, ⟨32, _⟩ => ⟨S100000, .i32⟩
  | .hbm, ⟨33, _⟩ => ⟨S1700000, .i32⟩
  | .hbm, ⟨34, _⟩ => ⟨S1700000, .i32⟩
  | .hbm, ⟨35, _⟩ => ⟨S_, .f32⟩
  | .hbm, ⟨36, _⟩ => ⟨S1700000, .f32⟩
  | .hbm, ⟨37, _⟩ => ⟨S_, .f32⟩
  | .hbm, ⟨38, _⟩ => ⟨S100000, .f32⟩
  | .hbm, ⟨39, _⟩ => ⟨S1700000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .i1⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000, .f32⟩
  | .hbm, ⟨67, _⟩ => ⟨S1700000, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S1x40, .f32⟩
  | .hbm, ⟨109, _⟩ => ⟨S100000x40, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S64x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S64x40, .f32⟩
  | .local _ .vmem, ⟨23, _⟩ => ⟨S1x40, .f32⟩
  | .local _ .vmem, ⟨24, _⟩ => ⟨S4000x40, .f32⟩
  | .local _ .vmem, ⟨25, _⟩ => ⟨S4000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x40_S4000x40_1_0_0_1_n_n_wf : DotDims.WF S4000x64 S64x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x40.size a ≤ S100000x40.size a
  hwx3_3 : ∀ i : grid3.Coords, EltTy.bits .f32 = 32 ∨ (Rect.block (s := S100000x40) S4000x40.size (cc3_transform_3 i) (hinb3_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S4000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 175
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x40, .f32⟩
  | 11 => ⟨S40, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S100000, .i32⟩
  | 46 => ⟨S1700000, .i32⟩
  | 47 => ⟨S1700000, .i32⟩
  | 48 => ⟨S_, .f32⟩
  | 49 => ⟨S1700000, .f32⟩
  | 50 => ⟨S_, .f32⟩
  | 51 => ⟨S100000, .f32⟩
  | 52 => ⟨S1700000x1, .i32⟩
  | 53 => ⟨S100000, .f32⟩
  | 54 => ⟨S_, .f32⟩
  | 55 => ⟨S100000, .f32⟩
  | 56 => ⟨S100000, .i1⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000, .f32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x1, .f32⟩
  | 91 => ⟨S1700000x64, .f32⟩
  | 92 => ⟨S1700000x64, .f32⟩
  | 93 => ⟨S_, .f32⟩
  | 94 => ⟨S100000x64, .f32⟩
  | 95 => ⟨S1700000x1, .i32⟩
  | 96 => ⟨S100000x64, .f32⟩
  | 97 => ⟨S1x64, .f32⟩
  | 98 => ⟨S100000x64, .f32⟩
  | 99 => ⟨S100000x64, .f32⟩
  | 100 => ⟨S100000x64, .f32⟩
  | 101 => ⟨S100000, .i32⟩
  | 102 => ⟨S1700000, .i32⟩
  | 103 => ⟨S1700000, .i32⟩
  | 104 => ⟨S_, .f32⟩
  | 105 => ⟨S1700000, .f32⟩
  | 106 => ⟨S_, .f32⟩
  | 107 => ⟨S100000, .f32⟩
  | 108 => ⟨S1700000x1, .i32⟩
  | 109 => ⟨S100000, .f32⟩
  | 110 => ⟨S_, .f32⟩
  | 111 => ⟨S100000, .f32⟩
  | 112 => ⟨S100000, .i1⟩
  | 113 => ⟨S100000, .f32⟩
  | 114 => ⟨S_, .f32⟩
  | 115 => ⟨S_, .f32⟩
  | 116 => ⟨S100000, .f32⟩
  | 117 => ⟨S100000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000, .f32⟩
  | 127 => ⟨S_, .i32⟩
  | _ => ⟨S100000x64, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S1700000, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x64, .f32⟩
  | 18 => ⟨S1700000x1, .f32⟩
  | 19 => ⟨S1700000x64, .f32⟩
  | 20 => ⟨S1700000x64, .f32⟩
  | 21 => ⟨S_, .f32⟩
  | 22 => ⟨S100000x64, .f32⟩
  | 23 => ⟨S1700000x1, .i32⟩
  | 24 => ⟨S100000x64, .f32⟩
  | 25 => ⟨S1x64, .f32⟩
  | 26 => ⟨S100000x64, .f32⟩
  | 27 => ⟨S100000x64, .f32⟩
  | 28 => ⟨S100000x40, .f32⟩
  | 29 => ⟨S1x40, .f32⟩
  | 30 => ⟨S100000x40, .f32⟩
  | 31 => ⟨S100000x40, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x40, .f32⟩
  | 39 => ⟨S100000x40, .f32⟩
  | 40 => ⟨S100000x40, .f32⟩
  | 41 => ⟨S_, .f32⟩
  | 42 => ⟨S100000, .f32⟩
  | 43 => ⟨S100000x1, .f32⟩
  | 44 => ⟨S100000x1, .f32⟩
  | 45 => ⟨S100000x40, .f32⟩
  | 46 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_call3_v0 : Ref sig .tc := ⟨.hbm, 115, rfl⟩
abbrev main_call3_v1 : Ref sig .tc := ⟨.hbm, 116, rfl⟩
abbrev main_v79 : Ref sig .tc := ⟨.hbm, 117, rfl⟩
abbrev main_c_16 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_18 : Ref sig .tc := ⟨.hbm, 127, rfl⟩
abbrev main_v87 : Ref sig .tc := ⟨.hbm, 128, rfl⟩
abbrev main_v88 : Ref sig .tc := ⟨.hbm, 129, rfl⟩
abbrev main_c_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_c_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call4_cst : Ref sig .tc := ⟨.hbm, 160, rfl⟩
abbrev main_call4_v0 : Ref sig .tc := ⟨.hbm, 161, rfl⟩
abbrev main_call4_cst_0 : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_cst_1 : Ref sig .tc := ⟨.hbm, 169, rfl⟩
abbrev main_call4_v7 : Ref sig .tc := ⟨.hbm, 170, rfl⟩
abbrev main_call4_v8 : Ref sig .tc := ⟨.hbm, 171, rfl⟩
abbrev main_call4_v9 : Ref sig .tc := ⟨.hbm, 172, rfl⟩
abbrev main_call4_v10 : Ref sig .tc := ⟨.hbm, 173, rfl⟩
abbrev main_v115 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.HostChain.lean ====
/-
  The graph side of the network: the host operations between the dense stages, as functions.

  Both programs move features along the edges with the same host operations, in the same order. They are named here
  once, over any float values:

  • `srcOf e` and `dstOf e` are the two rows of the edge list, each as a vector of 1600000 node numbers;
  • `wrapE v` and `wrapN v` turn node numbers into gather indices: a negative number is moved up by the node count
    (jnp's index convention), and the vector becomes a one-column index array;
  • `agg x e` is the sum over incoming edges of the source node's features: a gather along `src` scattered-and-added
    along `dst` into zeros;
  • `withLoops v` appends the 100000 self loops `0, 1, …` to an edge row;
  • `degOf d` counts, for every node, the edges (with self loops) that arrive at it; `dinvOf d` is its inverse square
    root where the count is positive and zero elsewhere; `normOf s d` is the product of the two ends' values, one number
    per edge: the symmetric normalization of a graph convolution;
  • `convOf hw s d nrm b` is the aggregation of a graph convolution: the transformed features `hw` gathered along `s`,
    scaled edge by edge by `nrm`, scattered-and-added along `d` into zeros, plus the bias `b` on every row.
-/
import proofs.«100351_j78898549227759_1_alg».proof.KernelIdeal

noncomputable section

namespace Cert.Chain

open Idealize.ShloMosaic Cert.KernelIdeal Cert.KernelIdeal.Facts₀ Cert.KernelIdeal.Facts

variable {F : FTy → Type} [FloatOps F] [Cert.KernelIdeal.Facts]

/-- The edges' source row. -/
def srcOf (e : IVec S2x1600000 32) : IVec S1600000 32 :=
  shapeCast S1600000 (extractStridedSlice S1x1600000 ![0, 0] e slices_S2x1600000_S1x1600000_0_0) shapeCasts_S1x1600000_S1600000

/-- The edges' destination row. -/
def dstOf (e : IVec S2x1600000 32) : IVec S1600000 32 :=
  shapeCast S1600000 (extractStridedSlice S1x1600000 ![1, 0] e slices_S2x1600000_S1x1600000_1_0) shapeCasts_S1x1600000_S1600000

/-- Node numbers of the plain edges as a gather index column. -/
def wrapE (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The neighbours' aggregate: source rows gathered, then scattered-and-added along the destinations. -/
def agg (x : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dstOf e))
    (Host.gather gather_S100000x64_S1600000x1_S1600000x64_1_0_n_n_0_1_164 x (wrapE (srcOf e)))

/-- An edge row with the self loops appended. -/
def withLoops (v : IVec S1600000 32) : IVec S1700000 32 :=
  concatenate S1700000 0 [⟨S1600000, v⟩, ⟨S100000, iotaInDim S100000 32 0⟩] concatenates_S1600000_S100000_S1700000_d0

/-- Node numbers of the edges with self loops as a gather index column. -/
def wrapN (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Every node's count of arriving edges. -/
def degOf (d : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of the count where it is positive, zero elsewhere. -/
def dinvOf (d : IVec S1700000 32) : FVec F S100000 .f32 :=
  select (cmpf (F := F) .ogt (degOf d) (broadcastInDim S100000 ![] bcast_S_S100000 (constant S_ .f32 0x00000000#32)))
    (Host.rsqrt (degOf (F := F) d))
    (broadcastInDim S100000 ![] bcast_S_S100000 (constant (F := F) S_ .f32 0x00000000#32))

/-- The symmetric normalization, one number per edge. -/
def normOf (s d : IVec S1700000 32) : FVec F S1700000 .f32 :=
  mulf (Host.gather gather_S100000_S1700000x1_S1700000_n_0_n_n_0_1_1 (dinvOf (F := F) d) (wrapN s))
    (Host.gather gather_S100000_S1700000x1_S1700000_n_0_n_n_0_1_1 (dinvOf (F := F) d) (wrapN d))

/-- A graph convolution's aggregation of already transformed features, with its bias. -/
def convOf (hw : FVec F S100000x64 .f32) (s d : IVec S1700000 32) (nrm : FVec F S1700000 .f32) (b : FVec F S64 .f32) :
    FVec F S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 hw (wrapN s))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

end Cert.Chain

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KHost.lean ====
/-
  The kernel program's host stretches, read at the buffers the dense stages and the results depend on.

  Between its four dense stages the program runs stretches of host operations. Each lemma here reads the contents of one
  buffer after one stretch, from ANY contents before it, as a function (HostChain.lean) of the buffers the stretch reads;
  the lists of buffers a stretch writes say which buffers it leaves alone.
-/
import proofs.«100351_j78898549227759_1_alg».proof.Proof.Gen.KernelIdeal.Launch
import proofs.«100351_j78898549227759_1_alg».proof.Proof.HostChain
import proofs.«100351_j78898549227759_1_alg».proof.Proof.LibFoldRead

noncomputable section

namespace Cert.KernelIdeal.HostRead

open Idealize.ShloMosaic Idealize.ShloMosaic.StableHlo Cert.KernelIdeal Cert.KernelIdeal.Gen Cert.Chain

variable {F : FTy → Type} [FloatOps F]

/-! ## Before the perceptron stage -/

theorem ops0_v13 (W : Valuation τ sig (Elt F)) :
    after hostOps0 W (Proc.devRef .tc main_v13) = agg (W (Proc.devRef .tc main_arg0)) (W (Proc.devRef .tc main_arg1)) := by
  dsimp only [hostOps0]; fold_results <;> rfl

theorem ops0_v1 (W : Valuation τ sig (Elt F)) :
    after hostOps0 W (Proc.devRef .tc main_v1) = srcOf (W (Proc.devRef .tc main_arg1)) := by
  dsimp only [hostOps0]; fold_results <;> rfl

theorem ops0_v3 (W : Valuation τ sig (Elt F)) :
    after hostOps0 W (Proc.devRef .tc main_v3) = dstOf (W (Proc.devRef .tc main_arg1)) := by
  dsimp only [hostOps0]; fold_results <;> rfl

theorem ops0_v14 (W : Valuation τ sig (Elt F)) :
    after hostOps0 W (Proc.devRef .tc main_v14)
      = shapeCast S1x64 (W (Proc.devRef .tc main_arg3) : FVec F S64 .f32) Facts₀.shapeCasts_S64_S1x64 := by
  dsimp only [hostOps0]; fold_results <;> rfl

theorem ops0_v15 (W : Valuation τ sig (Elt F)) :
    after hostOps0 W (Proc.devRef .tc main_v15)
      = shapeCast S1x64 (W (Proc.devRef .tc main_arg5) : FVec F S64 .f32) Facts₀.shapeCasts_S64_S1x64 := by
  dsimp only [hostOps0]; fold_results <;> rfl

/-! ## The degree normalization, computed once for both graph convolutions -/

theorem norm_v42 (W : Valuation τ sig (Elt F)) :
    after hostOps1_2 (after hostOps1_1 (after hostOps1 W)) (Proc.devRef .tc main_v42)
      = normOf (withLoops (W (Proc.devRef .tc main_v1))) (withLoops (W (Proc.devRef .tc main_v3))) := by
  rw [← after_append, ← after_append]
  simp only [hostOps1, hostOps1_1, hostOps1_2, List.cons_append, List.nil_append]
  fold_results <;> rfl

theorem norm_v18 (W : Valuation τ sig (Elt F)) :
    after hostOps1_2 (after hostOps1_1 (after hostOps1 W)) (Proc.devRef .tc main_v18)
      = withLoops (W (Proc.devRef .tc main_v1)) := by
  rw [← after_append, ← after_append]
  simp only [hostOps1, hostOps1_1, hostOps1_2, List.cons_append, List.nil_append]
  fold_results <;> rfl

theorem norm_v19 (W : Valuation τ sig (Elt F)) :
    after hostOps1_2 (after hostOps1_1 (after hostOps1 W)) (Proc.devRef .tc main_v19)
      = withLoops (W (Proc.devRef .tc main_v3)) := by
  rw [← after_append, ← after_append]
  simp only [hostOps1, hostOps1_1, hostOps1_2, List.cons_append, List.nil_append]
  fold_results <;> rfl

/-! ## The two graph convolutions' aggregations, and the classifier's bias row -/

theorem ops2_v59 (W : Valuation τ sig (Elt F)) :
    after hostOps2 W (Proc.devRef .tc main_v59)
      = convOf (W (Proc.devRef .tc main_v43)) (W (Proc.devRef .tc main_v18)) (W (Proc.devRef .tc main_v19))
          (W (Proc.devRef .tc main_v42)) (W (Proc.devRef .tc main_arg7)) := by
  dsimp only [hostOps2]; fold_results <;> rfl

theorem ops3_v76 (W : Valuation τ sig (Elt F)) :
    after hostOps3 W (Proc.devRef .tc main_v76)
      = convOf (W (Proc.devRef .tc main_v60)) (W (Proc.devRef .tc main_v18)) (W (Proc.devRef .tc main_v19))
          (W (Proc.devRef .tc main_v42)) (W (Proc.devRef .tc main_arg9)) := by
  dsimp only [hostOps3]; fold_results <;> rfl

theorem ops3_v77 (W : Valuation τ sig (Elt F)) :
    after hostOps3 W (Proc.devRef .tc main_v77)
      = shapeCast S1x40 (W (Proc.devRef .tc main_arg11) : FVec F S40 .f32) Facts₀.shapeCasts_S40_S1x40 := by
  dsimp only [hostOps3]; fold_results <;> rfl

/-! ## What each stretch leaves alone -/

/-- The buffers `hostOps0` writes. -/
abbrev hostOps0_W : List (Ref sig .tc) := [main_v0, main_v1, main_v2, main_v3, main_c, main_v4, main_v5, main_c_0, main_v6, main_v7, main_v8, main_v9, main_v10, main_cst, main_v11, main_v12, main_v13, main_v14, main_v15]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem (f := Proc.devRef (τ := τ) .tc) ?_; decide)
/-- A buffer `hostOps0` does not write keeps its contents through it. -/
theorem hostOps0_keep (W : Valuation τ sig (Elt F)) (r : Ref sig .tc) (h : r ∉ hostOps0_W) :
    after hostOps0 W (Proc.devRef .tc r) = W (Proc.devRef .tc r) :=
  after_of_writes_sub hostOps0 W hostOps0_writes h

/-- The buffers `hostOps1` writes. -/
abbrev hostOps1_W : List (Ref sig .tc) := [main_v17, main_v18, main_v19, main_cst_1, main_v20, main_cst_2, main_v21, main_v22, main_v23, main_cst_3, main_v24, main_v25, main_v26, main_cst_4]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem (f := Proc.devRef (τ := τ) .tc) ?_; decide)
/-- A buffer `hostOps1` does not write keeps its contents through it. -/
theorem hostOps1_keep (W : Valuation τ sig (Elt F)) (r : Ref sig .tc) (h : r ∉ hostOps1_W) :
    after hostOps1 W (Proc.devRef .tc r) = W (Proc.devRef .tc r) :=
  after_of_writes_sub hostOps1 W hostOps1_writes h

/-- The buffers `hostOps1_1` writes. -/
abbrev hostOps1_1_W : List (Ref sig .tc) := [main_call0_v0, main_call0_v1, main_v27]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem (f := Proc.devRef (τ := τ) .tc) ?_; decide)
/-- A buffer `hostOps1_1` does not write keeps its contents through it. -/
theorem hostOps1_1_keep (W : Valuation τ sig (Elt F)) (r : Ref sig .tc) (h : r ∉ hostOps1_1_W) :
    after hostOps1_1 W (Proc.devRef .tc r) = W (Proc.devRef .tc r) :=
  after_of_writes_sub hostOps1_1 W hostOps1_1_writes h

/-- The buffers `hostOps1_2` writes. -/
abbrev hostOps1_2_W : List (Ref sig .tc) := [main_c_5, main_v28, main_v29, main_c_6, main_v30, main_v31, main_v32, main_v33, main_v34, main_c_7, main_v35, main_v36, main_c_8, main_v37, main_v38, main_v39, main_v40, main_v41, main_v42]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem (f := Proc.devRef (τ := τ) .tc) ?_; decide)
/-- A buffer `hostOps1_2` does not write keeps its contents through it. -/
theorem hostOps1_2_keep (W : Valuation τ sig (Elt F)) (r : Ref sig .tc) (h : r ∉ hostOps1_2_W) :
    after hostOps1_2 W (Proc.devRef .tc r) = W (Proc.devRef .tc r) :=
  after_of_writes_sub hostOps1_2 W hostOps1_2_writes h

/-- The buffers `hostOps2` writes. -/
abbrev hostOps2_W : List (Ref sig .tc) := [main_c_9, main_v44, main_v45, main_c_10, main_v46, main_v47, main_v48, main_v49, main_v50, main_v51, main_v52, main_v53, main_cst_11, main_v54, main_v55, main_v56, main_v57, main_v58, main_v59]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem (f := Proc.devRef (τ := τ) .tc) ?_; decide)
/-- A buffer `hostOps2` does not write keeps its contents through it. -/
theorem hostOps2_keep (W : Valuation τ sig (Elt F)) (r : Ref sig .tc) (h : r ∉ hostOps2_W) :
    after hostOps2 W (Proc.devRef .tc r) = W (Proc.devRef .tc r) :=
  after_of_writes_sub hostOps2 W hostOps2_writes h

/-- The buffers `hostOps3` writes. -/
abbrev hostOps3_W : List (Ref sig .tc) := [main_c_12, main_v61, main_v62, main_c_13, main_v63, main_v64, main_v65, main_v66, main_v67, main_v68, main_v69, main_v70, main_cst_14, main_v71, main_v72, main_v73, main_v74, main_v75, main_v76, main_v77]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals (refine List.mem_map_of_mem (f := Proc.devRef (τ := τ) .tc) ?_; decide)
/-- A buffer `hostOps3` does not write keeps its contents through it. -/
theorem hostOps3_keep (W : Valuation τ sig (Elt F)) (r : Ref sig .tc) (h : r ∉ hostOps3_W) :
    after hostOps3 W (Proc.devRef .tc r) = W (Proc.devRef .tc r) :=
  after_of_writes_sub hostOps3 W hostOps3_writes h

end Cert.KernelIdeal.HostRead

end
-- ==== Proof.Rows.lean ====
/-
  Row functions of the dense stages, over the extended reals.

  Every dense stage of the network acts on the node features row by row: the output row of a node depends on that
  node's input row (or rows) and on the whole of the small weight arrays. The row functions are stated here once, over
  plain coordinate functions `Fin k → EReal`, so that a block of 4000 rows and the whole array of 100000 rows are read
  through the same function.

  • `dense W x` is the row `x` times the matrix `W`: entry `b` is `∑ c, x c · W (c, b)`.
  • `mlpRow` is the two-layer perceptron with rectifiers applied to the sum of a node's own features and its
    neighbours' aggregate: `relu (relu ((x + a)·W₁ + c₁)·W₂ + c₂)`.
  • `lsmRow z` is the logarithm of the softmax of the row `z`, computed with the row maximum subtracted first; the
    maximum is the fold of `max` from `-∞` followed by one more `max` with `-∞`, as both programs take it, and the sum of
    exponentials starts from an explicit zero.
-/
import Idealize.ShloMosaic.Lib.ValueIdx
import Idealize.ShloMosaic.PureOps.Ideal.Laws

noncomputable section

namespace Cert.Rows

open Idealize.ShloMosaic Idealize.ShloMosaic.ValueIdx

variable {m k n : Nat}

/-- A matrix of extended reals with `a` rows and `b` columns. -/
abbrev Mat (a b : Nat) : Type := (⟨2, ![a, b]⟩ : Shape).Idx → EReal

/-- Row `a` of a matrix, as a function of the column. -/
def row (X : Mat m k) (a : Fin m) : Fin k → EReal := fun c => X (ix2 a c)

/-- A row times a matrix. -/
def dense (W : Mat k n) (x : Fin k → EReal) : Fin n → EReal := fun b => ∑ c : Fin k, x c * W (ix2 c b)

/-- The rectifier against the float zero pattern. -/
def relu0 (z : Fin n → EReal) : Fin n → EReal := fun j => max (z j) (Ideal.ofBits .f32 0x00000000#32)

/-- The two-layer perceptron on a node's own row plus its neighbours' aggregate. -/
def mlpRow (W1 W2 : Mat 64 64) (c1 c2 : Fin 64 → EReal) (x a : Fin 64 → EReal) : Fin 64 → EReal :=
  relu0 fun j => dense W2 (relu0 fun i => dense W1 (fun t => x t + a t) i + c1 i) j + c2 j

/-- The row maximum as both programs take it. -/
def rowMax (z : Fin n → EReal) : EReal :=
  max (Ideal.ofBits .f32 0xFF800000#32) ((Finset.univ : Finset (Fin n)).fold max (Ideal.ofBits .f32 0xFF800000#32) z)

/-- The logarithm of the softmax of a row. -/
def lsmRow (z : Fin n → EReal) : Fin n → EReal :=
  fun j => (z j - rowMax z) - Ideal.log (Ideal.ofBits .f32 0x00000000#32 + ∑ q : Fin n, Ideal.exp (z q - rowMax z))

/-- The classifier row: a dense layer with bias, then the logarithm of the softmax. -/
def finRow (W : Mat 64 40) (c : Fin 40 → EReal) (h : Fin 64 → EReal) : Fin 40 → EReal :=
  lsmRow fun j => dense W h j + c j

/-- The perceptron stage on a whole array of `m` rows. -/
def mlpArr (W1 W2 : Mat 64 64) (c1 c2 : Fin 64 → EReal) (X A : Mat m 64) : Mat m 64 :=
  fun i => mlpRow W1 W2 c1 c2 (row X (i 0)) (row A (i 0)) (i 1)

/-- A plain product on a whole array of `m` rows. -/
def mmArr (W : Mat k n) (X : Mat m k) : Mat m n := fun i => dense W (row X (i 0)) (i 1)

/-- The classifier stage on a whole array of `m` rows. -/
def finArr (W : Mat 64 40) (c : Fin 40 → EReal) (X : Mat m 64) : Mat m 40 := fun i => finRow W c (row X (i 0)) (i 1)

end Cert.Rows

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibBlockOps.lean ====
/-
  Blocks of rows read at an index, over arbitrary sizes: a column repeated across the columns of a block, a product with a
  transposed weight, the stage that averages a block of neighbour sums and projects it, and the logarithm of the softmax
  of a block with two columns.

  • An `[m, 1]` column repeated across `n` columns reads, at `(a, c)`, the column at `(a, 0)`; a length-`m` vector cast
    to such a column first reads the vector at `a`.
  • A block `[m, k]` times the transpose of a weight `[n, k]`, into a zero accumulator, is at `(a, j)` the contraction
    `∑ c, A (a, c) · W (j, c)`.
  • The averaging stage divides each row of a block of sums by that row's count, clipped below at a threshold, projects
    the quotient by one weight, adds a one-row bias, and adds the projection of a second block by a second weight.
  • For a block with two columns the row maximum, taken as a fold of `max` from `-∞` and then `max` with `-∞` once more,
    is the larger of the row's two entries; subtracting it, exponentiating, summing along the row, taking the logarithm
    and subtracting that gives the logarithm of the softmax of the row.
-/
import Idealize.ShloMosaic.Lib.StackMember
import Idealize.ShloMosaic.Lib.KernelVsHost
import Idealize.ShloMosaic.Lib.ValueLayout
import Idealize.ShloMosaic.PureOps.Ideal.Laws

noncomputable section

namespace Cert.BlockOps

open Idealize.ShloMosaic Idealize.ShloMosaic.ValueIdx Idealize.ShloMosaic.StackMember

variable {m k n : Nat}

/-! ## A column repeated across columns -/

/-- An `[m, 1]` column repeated across `n` columns reads, at `(a, c)`, the column at `(a, 0)`. -/
theorem broadcastTo_a1_ab_apply {α : Type} (v : (⟨2, ![m, 1]⟩ : Shape).Idx → α)
    (h : (⟨2, ![m, 1]⟩ : Shape).Broadcasts ⟨2, ![m, n]⟩) (a : Fin m) (c : Fin n) :
    broadcastTo ⟨2, ![m, n]⟩ v h (ix2 a c) = v (ix2 a (0 : Fin 1)) := by
  refine broadcastTo_apply v h (ix2 a c) (ix2 a (0 : Fin 1)) fun ax => ?_
  match ax with
  | ⟨0, _⟩ =>
    show a.val = if m = 1 then 0 else a.val
    split
    · have := a.isLt; omega
    · rfl
  | ⟨1, _⟩ => rfl

/-- A length-`m` vector cast to a column and repeated across `n` columns reads, at `(a, c)`, the vector at `a`. -/
theorem columnBroadcast_apply {α : Type} (x : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (a : Fin m) (c : Fin n) :
    broadcastTo ⟨2, ![m, n]⟩ (shapeCast ⟨2, ![m, 1]⟩ x hc) hb (ix2 a c) = x (ix1 a) := by
  rw [broadcastTo_a1_ab_apply]
  exact shapeCast_apply x hc _ _ (by
    rw [Shape.rowMajor_val_two, Shape.rowMajor_val_one]
    show a.val = a.val * 1 + 0
    omega)

/-! ## A product with a transposed weight -/

/-- A block times the transpose of a weight, into the zero accumulator, at `(a, j)`: both factors are read along their
    second coordinate. -/
theorem matmul_transposed_apply (d : DotDims ⟨2, ![m, k]⟩ ⟨2, ![k, n]⟩ ⟨2, ![m, n]⟩) (hd : d = DotDims.plain m k n)
    (prec : Option ContractPrecision) (A : FVec Ideal ⟨2, ![m, k]⟩ .f32) (W : FVec Ideal ⟨2, ![n, k]⟩ .f32)
    (hW : (⟨2, ![n, k]⟩ : Shape).Transposes [1, 0] ⟨2, ![k, n]⟩) (a : Fin m) (j : Fin n) :
    matmul d prec A (transpose ⟨2, ![k, n]⟩ [1, 0] W hW) (constant ⟨2, ![m, n]⟩ .f32 0x00000000#32) (ix2 a j)
      = ∑ c : Fin k, A (ix2 a c) * W (ix2 j c) := by
  subst hd
  rw [matmul_zero_eq_dotGeneral, dotGeneral_plain_apply]
  exact Finset.sum_congr rfl fun c _ => by rw [transpose_ix2_apply]

/-! ## The averaging stage -/

/-- The quotient of a block of sums by its rows' clipped counts, at `(a, c)`. -/
theorem clippedMean_apply (N : FVec Ideal ⟨2, ![m, k]⟩ .f32) (D : FVec Ideal ⟨2, ![m, 1]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩) (a : Fin m) (c : Fin k) :
    divf (shapeCast ⟨2, ![m, k]⟩ N hN)
        (broadcastTo ⟨2, ![m, k]⟩
          (maximumf (shapeCast ⟨2, ![m, 1]⟩ D hD) (broadcast ⟨2, ![m, 1]⟩ (Scalar.ofBits (F := Ideal) .f32 θ))) hDb) (ix2 a c)
      = Ideal.div (N (ix2 a c)) (max (D (ix2 a (0 : Fin 1))) (Ideal.ofBits .f32 θ)) := by
  rw [divf_apply, broadcastTo_a1_ab_apply, maximumf_apply, shapeCast_self N hN, shapeCast_self D hD]
  rfl

/-- The averaging stage at `(a, j)`. -/
theorem meanProject_apply (d : DotDims ⟨2, ![m, k]⟩ ⟨2, ![k, n]⟩ ⟨2, ![m, n]⟩) (hd : d = DotDims.plain m k n)
    (prec : Option ContractPrecision)
    (N : FVec Ideal ⟨2, ![m, k]⟩ .f32) (D : FVec Ideal ⟨2, ![m, 1]⟩ .f32) (W₁ : FVec Ideal ⟨2, ![n, k]⟩ .f32)
    (B : FVec Ideal ⟨2, ![1, n]⟩ .f32) (X : FVec Ideal ⟨2, ![m, k]⟩ .f32) (W₂ : FVec Ideal ⟨2, ![n, k]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩)
    (hW : (⟨2, ![n, k]⟩ : Shape).Transposes [1, 0] ⟨2, ![k, n]⟩)
    (hB : (⟨2, ![1, n]⟩ : Shape).ShapeCasts ⟨2, ![1, n]⟩) (hBb : (⟨2, ![1, n]⟩ : Shape).Broadcasts ⟨2, ![m, n]⟩)
    (a : Fin m) (j : Fin n) :
    addf
        (addf
          (matmul d prec
            (divf (shapeCast ⟨2, ![m, k]⟩ N hN)
              (broadcastTo ⟨2, ![m, k]⟩
                (maximumf (shapeCast ⟨2, ![m, 1]⟩ D hD) (broadcast ⟨2, ![m, 1]⟩ (Scalar.ofBits (F := Ideal) .f32 θ))) hDb))
            (transpose ⟨2, ![k, n]⟩ [1, 0] W₁ hW) (constant ⟨2, ![m, n]⟩ .f32 0x00000000#32))
          (broadcastTo ⟨2, ![m, n]⟩ (shapeCast ⟨2, ![1, n]⟩ B hB) hBb))
        (matmul d prec X (transpose ⟨2, ![k, n]⟩ [1, 0] W₂ hW) (constant ⟨2, ![m, n]⟩ .f32 0x00000000#32)) (ix2 a j)
      = ((∑ c : Fin k, Ideal.div (N (ix2 a c)) (max (D (ix2 a (0 : Fin 1))) (Ideal.ofBits .f32 θ)) * W₁ (ix2 j c))
          + B (ix2 (0 : Fin 1) j))
        + ∑ c : Fin k, X (ix2 a c) * W₂ (ix2 j c) := by
  rw [addf_apply, addf_apply, matmul_transposed_apply d hd, matmul_transposed_apply d hd, broadcastTo_1b_ab_apply,
    shapeCast_self B hB]
  refine congrArg (fun t => t + B (ix2 (0 : Fin 1) j) + ∑ c : Fin k, X (ix2 a c) * W₂ (ix2 j c))
    (Finset.sum_congr rfl fun c _ => ?_)
  rw [clippedMean_apply]

/-! ## The logarithm of the softmax of a block with two columns -/

/-- The index of a one-axis reduction along the rows: the result index `a` with the column `q` put back. -/
theorem lift_columns (h : (⟨2, ![m, n]⟩ : Shape).Reduces [1] ⟨1, ![m]⟩) (a : Fin m) (q : Fin n) :
    h.lift (ix1 a) q = ix2 a q := by
  funext c
  refine Fin.ext ?_
  match c with
  | ⟨0, _⟩ => rfl
  | ⟨1, _⟩ => rfl

/-- The fold of `max` from `-∞` over two values is the larger of the two. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The pattern of `-∞` denotes the least extended real. -/
theorem ofBits_negInf_f32 : Ideal.ofBits .f32 0xFF800000#32 = ⊥ := by simp [Ideal.ofBits, Ideal.ieee]

/-- The row maximum of a two-column block, as a fold from `-∞` followed by a `max` with `-∞`, at row `a`. -/
theorem rowMax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ) (a : Fin m) :
    maximumf (broadcast ⟨1, ![m]⟩ (Scalar.ofBits (F := Ideal) .f32 0xFF800000#32))
        (multiReduction (F := Ideal) .maximumf [1] ⟨1, ![m]⟩ Z 0xFF800000#32 hr hφ hmax) (ix1 a)
      = max (Z (ix2 a (0 : Fin 2))) (Z (ix2 a (1 : Fin 2))) := by
  rw [maximumf_apply]
  refine (congrArg (max _) (Ideal.multiReduction_maximumf_single Z _ hr hφ hmax (ix1 a))).trans ?_
  have hfold : (Finset.univ : Finset (Fin 2)).fold max (Ideal.ofBits .f32 0xFF800000#32)
      (fun q : Fin 2 => Z (hr.lift (ix1 a) q)) = max (Z (ix2 a (0 : Fin 2))) (Z (ix2 a (1 : Fin 2))) := by
    rw [ofBits_negInf_f32, fold_max_two, lift_columns, lift_columns]
  exact (congrArg (max (Ideal.ofBits .f32 0xFF800000#32)) hfold).trans (by rw [ofBits_negInf_f32, max_bot_left])

/-- The sum along the rows of a block, at row `a`: the sum over the row's entries. -/
theorem rowSum_apply (src : FVec Ideal ⟨2, ![m, n]⟩ .f32)
    (hr : (⟨2, ![m, n]⟩ : Shape).Reduces [1] ⟨1, ![m]⟩) (hφ : FKind.Formats .f32)
    (hadd : (0x00000000#32 : BitVec 32) = FKind.add.neutral .f32 hφ) (a : Fin m) :
    multiReduction (F := Ideal) .add [1] ⟨1, ![m]⟩ src 0x00000000#32 hr hφ hadd (ix1 a) = ∑ q : Fin n, src (ix2 a q) :=
  (Ideal.multiReduction_add_single src _ hr hφ hadd (ix1 a)).trans
    (Finset.sum_congr rfl fun q _ => congrArg src (lift_columns hr a q))

/-- The logarithm of the softmax of a two-column block at `(a, j)`, computed with the row maximum subtracted first. -/
theorem logSoftmax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 2]⟩)
    (a : Fin m) (j : Fin 2) :
    subf
        (subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb))
        (broadcastTo ⟨2, ![m, 2]⟩
          (log (shapeCast ⟨2, ![m, 1]⟩
            (multiReduction (F := Ideal) .add [1] ⟨1, ![m]⟩
              (exp (subf Z (broadcastTo ⟨2, ![m, 2]⟩ (shapeCast ⟨2, ![m, 1]⟩
                (maximumf (broadcast ⟨1, ![m]⟩ (Scalar.ofBits (F := Ideal) .f32 0xFF800000#32))
                  (multiReduction (F := Ideal) .maximumf [1] ⟨1, ![m]⟩ Z 0xFF800000#32 hr hφ hmax)) hc) hb)))
              0x00000000#32 hr hφ hadd) hc)) hb) (ix2 a j)
      = (Z (ix2 a j) - max (Z (ix2 a (0 : Fin 2))) (Z (ix2 a (1 : Fin 2))))
        - Ideal.log (∑ q : Fin 2, Ideal.exp (Z (ix2 a q) - max (Z (ix2 a (0 : Fin 2))) (Z (ix2 a (1 : Fin 2))))) := by
  have hcen : ∀ q : Fin 2,
      subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb) (ix2 a q)
        = Z (ix2 a q) - max (Z (ix2 a (0 : Fin 2))) (Z (ix2 a (1 : Fin 2))) := fun q => by
    rw [subf_apply, columnBroadcast_apply, rowMax_two_apply]
  rw [subf_apply, hcen j, broadcastTo_a1_ab_apply]
  refine congrArg (fun t => Z (ix2 a j) - max (Z (ix2 a (0 : Fin 2))) (Z (ix2 a (1 : Fin 2))) - Ideal.log t) ?_
  refine (shapeCast_apply _ hc (ix2 a (0 : Fin 1)) (ix1 a) (by
    rw [Shape.rowMajor_val_two, Shape.rowMajor_val_one]
    show a.val = a.val * 1 + 0
    omega)).trans ?_
  refine (rowSum_apply _ hr hφ hadd a).trans ?_
  exact Finset.sum_congr rfl fun q _ => congrArg Ideal.exp (hcen q)

end Cert.BlockOps

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.RowOps.lean ====
/-
  The dense stages' operations read at an index as row functions, for a block or an array of any number of rows.

  A kernel computes on a block of rows with vector operations (a product into a zero accumulator after rounding both
  factors to bf16, which changes nothing over the extended reals; a one-row bias repeated down the rows; a rectifier
  against a splat zero; lane reductions), the reference on the whole array with host operations (a `dot_general`, a
  vector broadcast along the rows, a scalar zero broadcast, `reduce`s). Read at row `p` and column `q`, each is the
  corresponding row function (Rows.lean) of row `p` of its operand.
-/
import Idealize.ShloMosaic.Lib.KernelVsHost
import Idealize.ShloMosaic.Lib.IdealHost
import Idealize.ShloMosaic.Lib.ValueLayout
import proofs.«100351_j78898549227759_1_alg».proof.Proof.Rows
import proofs.«100351_j78898549227759_1_alg».proof.Proof.LibPlainProduct
import proofs.«100351_j78898549227759_1_alg».proof.Proof.LibBlockOps
import proofs.«100351_j78898549227759_1_alg».proof.Proof.LibRepeat

noncomputable section

namespace Cert.RowOps

open Idealize.ShloMosaic Idealize.ShloMosaic.ValueIdx Cert.Rows

variable {m k n : Nat}

/-! ## Products -/

/-- A kernel's product of two arrays rounded to bf16, into zeros, at `(p, q)`. -/
theorem kmatmul_apply (d : DotDims ⟨2, ![m, k]⟩ ⟨2, ![k, n]⟩ ⟨2, ![m, n]⟩) (hd : d = DotDims.plain m k n)
    (hb : FTy.bits .bf16 < FTy.bits .f32) (X : FVec Ideal ⟨2, ![m, k]⟩ .f32) (W : FVec Ideal ⟨2, ![k, n]⟩ .f32)
    (p : Fin m) (q : Fin n) :
    matmul d none (truncf .bf16 X hb) (truncf .bf16 W hb) (constant ⟨2, ![m, n]⟩ .f32 0x00000000#32) (ix2 p q)
      = dense W (row X p) q :=
  Cert.PlainProduct.matmul_plain_apply d hd none (truncf .bf16 X hb) (truncf .bf16 W hb) p q

/-- The host's product at `(p, q)`. -/
theorem hdot_apply (d : DotDims ⟨2, ![m, k]⟩ ⟨2, ![k, n]⟩ ⟨2, ![m, n]⟩) (hd : d = DotDims.plain m k n)
    (X : FVec Ideal ⟨2, ![m, k]⟩ .f32) (W : FVec Ideal ⟨2, ![k, n]⟩ .f32) (p : Fin m) (q : Fin n) :
    Host.dotGeneral d none X W (ix2 p q) = dense W (row X p) q :=
  Cert.PlainProduct.dotGeneral_plain_apply' d hd none X W p q

/-! ## A bias along every row -/

/-- A vector laid as one row `[1, n]` by the host, at `(0, q)`. -/
theorem oneRow_apply (h1 : (⟨1, ![n]⟩ : Shape).BroadcastsInDim ⟨2, ![1, n]⟩ ![1]) (b : FVec Ideal ⟨1, ![n]⟩ .f32) (q : Fin n) :
    broadcastInDim ⟨2, ![1, n]⟩ ![1] h1 b (ix2 (0 : Fin 1) q) = b (ix1 q) := by
  refine broadcastInDim_apply ![1] h1 b (ix2 (0 : Fin 1) q) (ix1 q) fun a => ?_
  match a with
  | ⟨0, _⟩ =>
    show q.val = if n = 1 then 0 else q.val
    split
    · have := q.isLt; omega
    · rfl

/-- The host's bias: a vector laid as one row and repeated down the rows, at `(p, q)`. -/
theorem hbias_apply (h1 : (⟨1, ![n]⟩ : Shape).BroadcastsInDim ⟨2, ![1, n]⟩ ![1])
    (h2 : (⟨2, ![1, n]⟩ : Shape).BroadcastsInDim ⟨2, ![m, n]⟩ ![0, 1]) (b : FVec Ideal ⟨1, ![n]⟩ .f32) (p : Fin m) (q : Fin n) :
    broadcastInDim ⟨2, ![m, n]⟩ ![0, 1] h2 (broadcastInDim ⟨2, ![1, n]⟩ ![1] h1 b) (ix2 p q) = b (ix1 q) := by
  rw [broadcastInDim_oneRow_apply, oneRow_apply]

/-- A kernel's bias: a one-row block repeated down the rows, at `(p, q)`. -/
theorem kbias_apply (h1 : (⟨2, ![1, n]⟩ : Shape).ShapeCasts ⟨2, ![1, n]⟩) (hbc : (⟨2, ![1, n]⟩ : Shape).Broadcasts ⟨2, ![m, n]⟩)
    (B : FVec Ideal ⟨2, ![1, n]⟩ .f32) (p : Fin m) (q : Fin n) :
    broadcastTo ⟨2, ![m, n]⟩ (shapeCast ⟨2, ![1, n]⟩ B h1) hbc (ix2 p q) = B (ix2 (0 : Fin 1) q) := by
  rw [shapeCast_self, Cert.Lib.Repeat.rowRepeat_apply]

/-! ## A dense layer with bias and rectifier -/

/-- A kernel's layer at `(p, q)`. -/
theorem klayer_apply (d : DotDims ⟨2, ![m, k]⟩ ⟨2, ![k, n]⟩ ⟨2, ![m, n]⟩) (hd : d = DotDims.plain m k n)
    (hb : FTy.bits .bf16 < FTy.bits .f32) (h1 : (⟨2, ![1, n]⟩ : Shape).ShapeCasts ⟨2, ![1, n]⟩)
    (hbc : (⟨2, ![1, n]⟩ : Shape).Broadcasts ⟨2, ![m, n]⟩)
    (X : FVec Ideal ⟨2, ![m, k]⟩ .f32) (W : FVec Ideal ⟨2, ![k, n]⟩ .f32) (B : FVec Ideal ⟨2, ![1, n]⟩ .f32)
    (p : Fin m) (q : Fin n) :
    maximumf
        (addf (matmul d none (truncf .bf16 X hb) (truncf .bf16 W hb) (constant ⟨2, ![m, n]⟩ .f32 0x00000000#32))
          (broadcastTo ⟨2, ![m, n]⟩ (shapeCast ⟨2, ![1, n]⟩ B h1) hbc))
        (broadcast ⟨2, ![m, n]⟩ (Scalar.ofBits (F := Ideal) .f32 0x00000000#32)) (ix2 p q)
      = relu0 (fun j => dense W (row X p) j + B (ix2 (0 : Fin 1) j)) q := by
  rw [maximumf_apply, addf_apply, kmatmul_apply d hd hb, kbias_apply]
  rfl

/-- The host's layer at `(p, q)`. -/
theorem hlayer_apply (d : DotDims ⟨2, ![m, k]⟩ ⟨2, ![k, n]⟩ ⟨2, ![m, n]⟩) (hd : d = DotDims.plain m k n)
    (hz : (⟨0, ![]⟩ : Shape).BroadcastsInDim ⟨2, ![m, n]⟩ ![])
    (h1 : (⟨1, ![n]⟩ : Shape).BroadcastsInDim ⟨2, ![1, n]⟩ ![1])
    (h2 : (⟨2, ![1, n]⟩ : Shape).BroadcastsInDim ⟨2, ![m, n]⟩ ![0, 1])
    (X : FVec Ideal ⟨2, ![m, k]⟩ .f32) (W : FVec Ideal ⟨2, ![k, n]⟩ .f32) (b : FVec Ideal ⟨1, ![n]⟩ .f32)
    (p : Fin m) (q : Fin n) :
    maximumf
        (addf (Host.dotGeneral d none X W) (broadcastInDim ⟨2, ![m, n]⟩ ![0, 1] h2 (broadcastInDim ⟨2, ![1, n]⟩ ![1] h1 b)))
        (broadcastInDim ⟨2, ![m, n]⟩ ![] hz (constant (F := Ideal) ⟨0, ![]⟩ .f32 0x00000000#32)) (ix2 p q)
      = relu0 (fun j => dense W (row X p) j + b (ix1 j)) q := by
  rw [maximumf_apply, addf_apply, hdot_apply d hd, hbias_apply]
  rfl

end Cert.RowOps

end
-- ==== Proof.KReg0.lean ====
/-
  The perceptron stage: what its pipeline leaves in the result array.

  Grid point `t` reads rows `4000·t … 4000·t + 3999` of the node features and of the neighbours' aggregate, and the whole
  of the two weight matrices and of the two one-row biases; it writes the same rows of the result. Over the extended reals
  the block's computation is, row by row, the two-layer perceptron with rectifiers on the sum of the two rows
  (`mlpRow`). The 25 blocks tile the array, so the result array is that function of the whole arrays, row by row
  (`mlpArr`).
-/
import proofs.«100351_j78898549227759_1_alg».proof.Proof.Gen.KernelIdeal.Frame
import proofs.«100351_j78898549227759_1_alg».proof.Proof.RowOps
import Idealize.ShloMosaic.Lib.Pipeline.Value

noncomputable section

namespace Cert.KernelIdeal.Reg0

open Idealize.ShloMosaic Idealize.ShloMosaic.ValueIdx Idealize.ShloMosaic.TcCoe Idealize.SL.Sem Cert.KernelIdeal Cert.KernelIdeal.Gen Cert.Rows Cert.RowOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic, row by row -/

/-- The first layer's output block. -/
def hidden (v0 v1 : FVec Ideal S4000x64 .f32) (v5 : FVec Ideal S64x64 .f32) (v8 : FVec Ideal S1x64 .f32) : FVec Ideal S4000x64 .f32 :=
  maximumf
    (addf (matmul (F := Ideal) dot_S4000x64_S64x64_S4000x64_1_0_0_1_n_n none
        (truncf .bf16 (addf v0 (shapeCast S4000x64 v1 Facts₀.shapeCasts_S4000x64_S4000x64)) Facts₀.bitsLt_bf16_f32)
        (truncf .bf16 v5 Facts₀.bitsLt_bf16_f32) (constant S4000x64 .f32 0x00000000#32))
      (broadcastTo S4000x64 (shapeCast S1x64 v8 Facts₀.shapeCasts_S1x64_S1x64) Facts₀.broadcasts_S1x64_S4000x64))
    (broadcast S4000x64 (Scalar.ofBits (F := Ideal) .f32 0x00000000#32))

/-- Row `p` of the first layer's output: the rectified dense layer of the sum of the two input rows. -/
theorem hidden_row (v0 v1 : FVec Ideal S4000x64 .f32) (v5 : FVec Ideal S64x64 .f32) (v8 : FVec Ideal S1x64 .f32) (p : Fin 4000) :
    row (hidden v0 v1 v5 v8) p
      = relu0 (fun i => dense v5 (fun t => row v0 p t + row v1 p t) i + v8 (ix2 (0 : Fin 1) i)) :=
  funext fun i => by
    show hidden v0 v1 v5 v8 (ix2 p i) = _
    unfold hidden
    refine (klayer_apply dot_S4000x64_S64x64_S4000x64_1_0_0_1_n_n rfl Facts₀.bitsLt_bf16_f32 Facts₀.shapeCasts_S1x64_S1x64
      Facts₀.broadcasts_S1x64_S4000x64 _ v5 v8 p i).trans ?_
    rw [shapeCast_self]
    rfl

/-- The block's result at `(p, q)`: the perceptron of rows `p` of the two input blocks. -/
theorem pay_apply (v0 v1 : FVec Ideal S4000x64 .f32) (v5 : FVec Ideal S64x64 .f32) (v8 : FVec Ideal S1x64 .f32)
    (v15 : FVec Ideal S64x64 .f32) (v18 : FVec Ideal S1x64 .f32) (p : Fin 4000) (q : Fin 64) :
    k0_pay1 (F := Ideal) v0 v1 v5 v8 v15 v18 (ix2 p q)
      = mlpRow v5 v15 (fun j => v8 (ix2 (0 : Fin 1) j)) (fun j => v18 (ix2 (0 : Fin 1) j)) (row v0 p) (row v1 p) q := by
  unfold k0_pay1
  refine (klayer_apply dot_S4000x64_S64x64_S4000x64_1_0_0_1_n_n rfl Facts₀.bitsLt_bf16_f32 Facts₀.shapeCasts_S1x64_S1x64
    Facts₀.broadcasts_S1x64_S4000x64 (hidden v0 v1 v5 v8) v15 v18 p q).trans ?_
  rw [hidden_row]
  rfl

/-! ## From the blocks to the array -/

/-- The printed index maps over the grid: the two feature windows and the result window sit at block row `t`, the
    weights and biases at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the feature block at point `t` is row `4000·t + p` of the feature array. -/
theorem x_row (c : Dev nD) (t : Fin cfg0.N) (p : Fin 4000) (r : Fin 100000) (hr : r.val = t.val * 4000 + p.val) :
    row (iblk0 V c 0 t) p = row (V c main_arg0) r := funext fun k => by
  obtain ⟨e0, e1, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 64 + 1 * k.val = k.val; omega

/-- Row `p` of the aggregate block at point `t` is row `4000·t + p` of the aggregate array. -/
theorem a_row (c : Dev nD) (t : Fin cfg0.N) (p : Fin 4000) (r : Fin 100000) (hr : r.val = t.val * 4000 + p.val) :
    row (iblk0 V c 1 t) p = row (V c main_v13) r := funext fun k => by
  obtain ⟨-, -, e2, e3, -⟩ := idx_facts t
  show V c main_v13 (((cfg0.win 1).blk t).view.emb (ix2 p k)) = V c main_v13 (ix2 r k)
  refine congrArg _ (funext fun a => Fin.ext ?_)
  match a with
  | ⟨0, _⟩ => show win0_1.index t (0 : Fin 2) * 4000 + 1 * p.val = r.val; omega
  | ⟨1, _⟩ => show win0_1.index t (1 : Fin 2) * 64 + 1 * k.val = k.val; omega

/-- The first weight's block at any point is the weight array. -/
theorem w1_whole (c : Dev nD) (t : Fin cfg0.N) : iblk0 V c 2 t = V c main_arg2 := funext fun y => by
  obtain ⟨k, q, rfl⟩ : ∃ (k : Fin 64) (q : Fin 64), y = ix2 k q := ⟨y 0, y 1, eq_ix2 y⟩
  obtain ⟨-, -, -, -, e4, e5, -⟩ := idx_facts t
  show V c main_arg2 (((cfg0.win 2).blk t).view.emb (ix2 k q)) = V c main_arg2 (ix2 k q)
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- The first bias's block at any point is the one-row bias array. -/
theorem b1_whole (c : Dev nD) (t : Fin cfg0.N) : iblk0 V c 3 t = V c main_v14 := funext fun y => by
  obtain ⟨k, q, rfl⟩ : ∃ (k : Fin 1) (q : Fin 64), y = ix2 k q := ⟨y 0, y 1, eq_ix2 y⟩
  obtain ⟨-, -, -, -, -, -, e6, e7, -⟩ := idx_facts t
  show V c main_v14 (((cfg0.win 3).blk t).view.emb (ix2 k q)) = V c main_v14 (ix2 k q)
  refine congrArg _ (funext fun a => Fin.ext ?_)
  match a with
  | ⟨0, _⟩ => show win0_3.index t (0 : Fin 2) * 1 + 1 * k.val = k.val; omega
  | ⟨1, _⟩ => show win0_3.index t (1 : Fin 2) * 64 + 1 * q.val = q.val; omega

/-- The second weight's block at any point is the weight array. -/
theorem w2_whole (c : Dev nD) (t : Fin cfg0.N) : iblk0 V c 4 t = V c main_arg4 := funext fun y => by
  obtain ⟨k, q, rfl⟩ : ∃ (k : Fin 64) (q : Fin 64), y = ix2 k q := ⟨y 0, y 1, eq_ix2 y⟩
  obtain ⟨-, -, -, -, -, -, -, -, e8, e9, -⟩ := idx_facts t
  show V c main_arg4 (((cfg0.win 4).blk t).view.emb (ix2 k q)) = V c main_arg4 (ix2 k q)
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- The second bias's block at any point is the one-row bias array. -/
theorem b2_whole (c : Dev nD) (t : Fin cfg0.N) : iblk0 V c 5 t = V c main_v15 := funext fun y => by
  obtain ⟨k, q, rfl⟩ : ∃ (k : Fin 1) (q : Fin 64), y = ix2 k q := ⟨y 0, y 1, eq_ix2 y⟩
  obtain ⟨-, -, -, -, -, -, -, -, -, -, e10, e11, -⟩ := idx_facts t
  show V c main_v15 (((cfg0.win 5).blk t).view.emb (ix2 k q)) = V c main_v15 (ix2 k q)
  refine congrArg _ (funext fun a => Fin.ext ?_)
  match a with
  | ⟨0, _⟩ => show win0_5.index t (0 : Fin 2) * 1 + 1 * k.val = k.val; omega
  | ⟨1, _⟩ => show win0_5.index t (1 : Fin 2) * 64 + 1 * q.val = q.val; omega

/-- The stage's result as a function of the arrays the region finds. -/
abbrev G (c : Dev nD) : S100000x64.Idx → EReal :=
  mlpArr (V c main_arg2) (V c main_arg4) (fun j => V c main_v14 (ix2 (0 : Fin 1) j)) (fun j => V c main_v15 (ix2 (0 : Fin 1) j))
    (V c main_arg0) (V c main_v13)

/-- What point `t` computes at `y` of its block is the whole-array function at the block's element `y`. -/
theorem point_eq (c : Dev nD) (t : Fin cfg0.N) (y : S4000x64.Idx) :
    k0_pay1 (F := Ideal) (iblk0 V c 0 t) (iblk0 V c 1 t) (iblk0 V c 2 t) (iblk0 V c 3 t) (iblk0 V c 4 t) (iblk0 V c 5 t) y
      = G V c (((cfg0.win 6).blk t).view.emb y) := by
  obtain ⟨p, q, rfl⟩ : ∃ (p : Fin 4000) (q : Fin 64), y = ix2 p q := ⟨y 0, y 1, eq_ix2 y⟩
  obtain ⟨-, -, -, -, -, -, -, -, -, -, -, -, e12, e13⟩ := idx_facts t
  have hq : (((cfg0.win 6).blk t).view.emb (ix2 p q)) 1 = q :=
    Fin.ext (by show win0_6.index t (1 : Fin 2) * 64 + 1 * q.val = q.val; omega)
  refine (pay_apply _ _ _ _ _ _ p q).trans ?_
  rw [w1_whole V c t, b1_whole V c t, w2_whole V c t, b2_whole V c t,
    x_row V c t p ((((cfg0.win 6).blk t).view.emb (ix2 p q)) 0) (by
      show win0_6.index t (0 : Fin 2) * 4000 + 1 * p.val = t.val * 4000 + p.val; omega),
    a_row V c t p ((((cfg0.win 6).blk t).view.emb (ix2 p q)) 0) (by
      show win0_6.index t (0 : Fin 2) * 4000 + 1 * p.val = t.val * 4000 + p.val; omega)]
  show _ = mlpRow _ _ _ _ _ _ ((((cfg0.win 6).blk t).view.emb (ix2 p q)) 1)
  rw [hq]

/-- What point `t` writes back is block `t` of the whole-array function. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S4000x64) hz, View.ld_unit_zero (S := S64x64) hz, View.ld_unit_zero (S := S1x64) hz]
  funext j
  exact point_eq V c t j

/-- An index of the result array is in point `t`'s block iff each coordinate is in the block's range. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v16).slice (win0_6.rect t)).set ↔ _
  rw [View.set_slice_whole, Rect.mem_set_unit]
  exact Iff.rfl

/-- Every row of the result array is in the block of the point `row / 4000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  refine ⟨⟨(i 0).val / 4000, by rw [hN]; omega⟩, flush0_6 _, ?_⟩
  rw [mem_blk]
  obtain ⟨-, -, -, -, -, -, -, -, -, -, -, -, e12, e13⟩ := idx_facts ⟨(i 0).val / 4000, by rw [hN]; omega⟩
  intro a
  match a with
  | ⟨0, _⟩ =>
    show win0_6.index _ (0 : Fin 2) * 4000 ≤ (i 0).val ∧ (i 0).val < win0_6.index _ (0 : Fin 2) * 4000 + 4000
    rw [e12]; show (i 0).val / 4000 * 4000 ≤ (i 0).val ∧ (i 0).val < (i 0).val / 4000 * 4000 + 4000; omega
  | ⟨1, _⟩ =>
    show win0_6.index _ (1 : Fin 2) * 64 ≤ (i 1).val ∧ (i 1).val < win0_6.index _ (1 : Fin 2) * 64 + 64
    rw [e13]; omega

/-- The result array after the stage. -/
theorem final (c : Dev nD) : (dat0 V c).arrAt 6 cfg0.N = G V c :=
  (dat0 V c).arrAt_eq_of_cover 6 _ (fun t _ => flushed_eq V c t) (cover)

end Cert.KernelIdeal.Reg0

end
-- ==== Proof.KReg1.lean ====
/-
  The first graph convolution's linear transform: what its pipeline leaves in the result array.

  The stage multiplies the node features, 4000 rows at a time, by one weight matrix. Grid point `t` reads rows
  `4000·t … 4000·t + 3999` of the features and the whole weight, and writes the same rows of the result; over the
  extended reals the block's product (both factors rounded to bf16 first, into a zero accumulator) is the plain
  product of those rows with the weight. The 25 blocks tile the array, so the result array is the product of the whole
  feature array with the weight, row by row (`mmArr`).
-/
import proofs.«100351_j78898549227759_1_alg».proof.Proof.Gen.KernelIdeal.Frame
import proofs.«100351_j78898549227759_1_alg».proof.Proof.RowOps
import Idealize.ShloMosaic.Lib.Pipeline.Value

noncomputable section

namespace Cert.KernelIdeal.Reg1

open Idealize.ShloMosaic Idealize.ShloMosaic.ValueIdx Idealize.ShloMosaic.TcCoe Idealize.SL.Sem Cert.KernelIdeal Cert.KernelIdeal.Gen Cert.Rows Cert.RowOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's product at `(p, q)`: row `p` of the feature block times the weight. -/
theorem pay_apply (v0 : FVec Ideal S4000x64 .f32) (v3 : FVec Ideal S64x64 .f32) (p : Fin 4000) (q : Fin 64) :
    k1_pay1 (F := Ideal) v0 v3 (ix2 p q) = dense v3 (row v0 p) q := by
  show matmul (F := Ideal) dot_S4000x64_S64x64_S4000x64_1_0_0_1_n_n none
      (truncf .bf16 (shapeCast S4000x64 v0 Facts₀.shapeCasts_S4000x64_S4000x64) Facts₀.bitsLt_bf16_f32)
      (truncf .bf16 v3 Facts₀.bitsLt_bf16_f32) (constant S4000x64 .f32 0x00000000#32) (ix2 p q) = _
  rw [shapeCast_self]
  exact kmatmul_apply _ rfl _ v0 v3 p q

/-- The printed index maps over the grid: the feature window and the result window sit at block row `t`, the weight
    window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature block at point `t`, at `(p, k)`, is the feature array at row `4000·t + p`. -/
theorem x_read (c : Dev nD) (t : Fin cfg1.N) (p : Fin 4000) (k : Fin 64) (r : Fin 100000)
    (hr : r.val = t.val * 4000 + p.val) : iblk1 V c 0 t (ix2 p k) = V c main_v16 (ix2 r k) := by
  obtain ⟨e0, e1, -, -, -, -⟩ := idx_facts t
  show V c main_v16 (((cfg1.win 0).blk t).view.emb (ix2 p k)) = V c main_v16 (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 64 + 1 * k.val = k.val; omega

/-- The weight block at any point is the weight array. -/
theorem w_read (c : Dev nD) (t : Fin cfg1.N) (k q q' : Fin 64) (hq : q'.val = q.val) :
    iblk1 V c 1 t (ix2 k q) = V c main_arg6 (ix2 k q') := by
  obtain ⟨-, -, e2, e3, -, -⟩ := idx_facts t
  show V c main_arg6 (((cfg1.win 1).blk t).view.emb (ix2 k q)) = V c main_arg6 (ix2 k q')
  refine congrArg _ (funext fun a => Fin.ext ?_)
  match a with
  | ⟨0, _⟩ => show win1_1.index t (0 : Fin 2) * 64 + 1 * k.val = k.val; omega
  | ⟨1, _⟩ => show win1_1.index t (1 : Fin 2) * 64 + 1 * q.val = q'.val; omega

/-- What point `t` computes at `y` of its block is the whole-array product at the block's element `y`. -/
theorem point_eq (c : Dev nD) (t : Fin cfg1.N) (y : S4000x64.Idx) :
    k1_pay1 (F := Ideal) (iblk1 V c 0 t) (iblk1 V c 1 t) y
      = mmArr (V c main_arg6) (V c main_v16) (((cfg1.win 2).blk t).view.emb y) := by
  obtain ⟨p, q, rfl⟩ : ∃ (p : Fin 4000) (q : Fin 64), y = ix2 p q := ⟨y 0, y 1, eq_ix2 y⟩
  obtain ⟨-, -, -, -, e4, e5⟩ := idx_facts t
  rw [pay_apply]
  unfold mmArr dense row
  refine Finset.sum_congr rfl fun k _ => ?_
  rw [x_read V c t p k ((((cfg1.win 2).blk t).view.emb (ix2 p q)) 0) (by
        show win1_2.index t (0 : Fin 2) * 4000 + 1 * p.val = t.val * 4000 + p.val; omega),
    w_read V c t k q ((((cfg1.win 2).blk t).view.emb (ix2 p q)) 1) (by
        show win1_2.index t (1 : Fin 2) * 64 + 1 * q.val = q.val; omega)]

/-- What point `t` writes back is block `t` of the whole-array product. -/
theorem flushed_eq (c : Dev nD) (t : Fin cfg1.N) :
    (dat1 V c).flushed 2 t = ((cfg1.win 2).blk t).view.read (Elt Ideal) (mmArr (V c main_arg6) (V c main_v16)) := by
  show (cfg1.win 2).cut (grid1.coords t) ((dat1 V c).after 2 t) = _
  rw [after1_2]
  unfold out1_2
  rw [View.canon_unit_zero hz]
  simp only [View.ld_unit_zero (S := S4000x64) hz, View.ld_unit_zero (S := S64x64) hz]
  funext j
  exact point_eq V c t j

/-- An index of the result array is in point `t`'s block iff each coordinate is in the block's range. -/
theorem mem_blk (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v43).slice (win1_2.rect t)).set ↔ _
  rw [View.set_slice_whole, Rect.mem_set_unit]
  exact Iff.rfl

/-- Every row of the result array is in the block of the point `row / 4000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_2 _, ?_⟩
  rw [mem_blk]
  obtain ⟨-, -, -, -, e4, e5⟩ := idx_facts ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e4]; show (i 0).val / 4000 * 4000 ≤ (i 0).val ∧ (i 0).val < (i 0).val / 4000 * 4000 + 4000; omega
  | ⟨1, _⟩ =>
    show win1_2.index _ (1 : Fin 2) * 64 ≤ (i 1).val ∧ (i 1).val < win1_2.index _ (1 : Fin 2) * 64 + 64
    rw [e5]; omega

/-- The result array after the stage: the whole-array product. -/
theorem final (c : Dev nD) : (dat1 V c).arrAt 2 cfg1.N = mmArr (V c main_arg6) (V c main_v16) :=
  (dat1 V c).arrAt_eq_of_cover 2 _ (fun t _ => flushed_eq V c t) (cover)

end Cert.KernelIdeal.Reg1

end
-- ==== Proof.KReg2.lean ====
/-
  The second graph convolution's linear transform: what its pipeline leaves in the result array.

  The stage multiplies the node features, 4000 rows at a time, by one weight matrix. Grid point `t` reads rows
  `4000·t … 4000·t + 3999` of the features and the whole weight, and writes the same rows of the result; over the
  extended reals the block's product (both factors rounded to bf16 first, into a zero accumulator) is the plain
  product of those rows with the weight. The 25 blocks tile the array, so the result array is the product of the whole
  feature array with the weight, row by row (`mmArr`).
-/
import proofs.«100351_j78898549227759_1_alg».proof.Proof.Gen.KernelIdeal.Frame
import proofs.«100351_j78898549227759_1_alg».proof.Proof.RowOps
import Idealize.ShloMosaic.Lib.Pipeline.Value

noncomputable section

namespace Cert.KernelIdeal.Reg2

open Idealize.ShloMosaic Idealize.ShloMosaic.ValueIdx Idealize.ShloMosaic.TcCoe Idealize.SL.Sem Cert.KernelIdeal Cert.KernelIdeal.Gen Cert.Rows Cert.RowOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's product at `(p, q)`: row `p` of the feature block times the weight. -/
theorem pay_apply (v0 : FVec Ideal S4000x64 .f32) (v3 : FVec Ideal S64x64 .f32) (p : Fin 4000) (q : Fin 64) :
    k2_pay1 (F := Ideal) v0 v3 (ix2 p q) = dense v3 (row v0 p) q := by
  show matmul (F := Ideal) dot_S4000x64_S64x64_S4000x64_1_0_0_1_n_n none
      (truncf .bf16 (shapeCast S4000x64 v0 Facts₀.shapeCasts_S4000x64_S4000x64) Facts₀.bitsLt_bf16_f32)
      (truncf .bf16 v3 Facts₀.bitsLt_bf16_f32) (constant S4000x64 .f32 0x00000000#32) (ix2 p q) = _
  rw [shapeCast_self]
  exact kmatmul_apply _ rfl _ v0 v3 p q

/-- The printed index maps over the grid: the feature window and the result window sit at block row `t`, the weight
    window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t`, at `(p, k)`, is the feature array at row `4000·t + p`. -/
theorem x_read (c : Dev nD) (t : Fin cfg2.N) (p : Fin 4000) (k : Fin 64) (r : Fin 100000)
    (hr : r.val = t.val * 4000 + p.val) : iblk2 V c 0 t (ix2 p k) = V c main_v59 (ix2 r k) := by
  obtain ⟨e0, e1, -, -, -, -⟩ := idx_facts t
  show V c main_v59 (((cfg2.win 0).blk t).view.emb (ix2 p k)) = V c main_v59 (ix2 r k)
  refine congrArg _ (funext fun a => Fin.ext ?_)
  match a with
  | ⟨0, _⟩ => show win2_0.index t (0 : Fin 2) * 4000 + 1 * p.val = r.val; omega
  | ⟨1, _⟩ => show win2_0.index t (1 : Fin 2) * 64 + 1 * k.val = k.val; omega

/-- The weight block at any point is the weight array. -/
theorem w_read (c : Dev nD) (t : Fin cfg2.N) (k q q' : Fin 64) (hq : q'.val = q.val) :
    iblk2 V c 1 t (ix2 k q) = V c main_arg8 (ix2 k q') := by
  obtain ⟨-, -, e2, e3, -, -⟩ := idx_facts t
  show V c main_arg8 (((cfg2.win 1).blk t).view.emb (ix2 k q)) = V c main_arg8 (ix2 k q')
  refine congrArg _ (funext fun a => Fin.ext ?_)
  match a with
  | ⟨0, _⟩ => show win2_1.index t (0 : Fin 2) * 64 + 1 * k.val = k.val; omega
  | ⟨1, _⟩ => show win2_1.index t (1 : Fin 2) * 64 + 1 * q.val = q'.val; omega

/-- What point `t` computes at `y` of its block is the whole-array product at the block's element `y`. -/
theorem point_eq (c : Dev nD) (t : Fin cfg2.N) (y : S4000x64.Idx) :
    k2_pay1 (F := Ideal) (iblk2 V c 0 t) (iblk2 V c 1 t) y
      = mmArr (V c main_arg8) (V c main_v59) (((cfg2.win 2).blk t).view.emb y) := by
  obtain ⟨p, q, rfl⟩ : ∃ (p : Fin 4000) (q : Fin 64), y = ix2 p q := ⟨y 0, y 1, eq_ix2 y⟩
  obtain ⟨-, -, -, -, e4, e5⟩ := idx_facts t
  rw [pay_apply]
  unfold mmArr dense row
  refine Finset.sum_congr rfl fun k _ => ?_
  rw [x_read V c t p k ((((cfg2.win 2).blk t).view.emb (ix2 p q)) 0) (by
        show win2_2.index t (0 : Fin 2) * 4000 + 1 * p.val = t.val * 4000 + p.val; omega),
    w_read V c t k q ((((cfg2.win 2).blk t).view.emb (ix2 p q)) 1) (by
        show win2_2.index t (1 : Fin 2) * 64 + 1 * q.val = q.val; omega)]

/-- What point `t` writes back is block `t` of the whole-array product. -/
theorem flushed_eq (c : Dev nD) (t : Fin cfg2.N) :
    (dat2 V c).flushed 2 t = ((cfg2.win 2).blk t).view.read (Elt Ideal) (mmArr (V c main_arg8) (V c main_v59)) := by
  show (cfg2.win 2).cut (grid2.coords t) ((dat2 V c).after 2 t) = _
  rw [after2_2]
  unfold out2_2
  rw [View.canon_unit_zero hz]
  simp only [View.ld_unit_zero (S := S4000x64) hz, View.ld_unit_zero (S := S64x64) hz]
  funext j
  exact point_eq V c t j

/-- An index of the result array is in point `t`'s block iff each coordinate is in the block's range. -/
theorem mem_blk (t : Fin cfg2.N) (i : S100000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v60).slice (win2_2.rect t)).set ↔ _
  rw [View.set_slice_whole, Rect.mem_set_unit]
  exact Iff.rfl

/-- Every row of the result array is in the block of the point `row / 4000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 25 := N_2
  refine ⟨⟨(i 0).val / 4000, by rw [hN]; omega⟩, flush2_2 _, ?_⟩
  rw [mem_blk]
  obtain ⟨-, -, -, -, e4, e5⟩ := idx_facts ⟨(i 0).val / 4000, by rw [hN]; omega⟩
  intro a
  match a with
  | ⟨0, _⟩ =>
    show win2_2.index _ (0 : Fin 2) * 4000 ≤ (i 0).val ∧ (i 0).val < win2_2.index _ (0 : Fin 2) * 4000 + 4000
    rw [e4]; show (i 0).val / 4000 * 4000 ≤ (i 0).val ∧ (i 0).val < (i 0).val / 4000 * 4000 + 4000; omega
  | ⟨1, _⟩ =>
    show win2_2.index _ (1 : Fin 2) * 64 ≤ (i 1).val ∧ (i 1).val < win2_2.index _ (1 : Fin 2) * 64 + 64
    rw [e5]; omega

/-- The result array after the stage: the whole-array product. -/
theorem final (c : Dev nD) : (dat2 V c).arrAt 2 cfg2.N = mmArr (V c main_arg8) (V c main_v59) :=
  (dat2 V c).arrAt_eq_of_cover 2 _ (fun t _ => flushed_eq V c t) (cover)

end Cert.KernelIdeal.Reg2

end
-- ==== Proof.RowLsm.lean ====
/-
  The logarithm of the softmax along the rows, read at an index, for a block or an array of any number of rows.

  Both programs subtract the row maximum first. The maximum is a reduction by `max` from `-∞` over the row followed by one
  more `max` with `-∞`; it is laid back over the row's entries as a column repeated across the columns; the sum of the
  exponentials of the centred entries is a reduction by `+` (the kernel's from the neutral zero, which the reading drops,
  the host's from an explicit zero); its logarithm is laid back in the same way and subtracted. At `(p, q)` both are
  `lsmRow` (Rows.lean) of row `p`, at `q`.
-/
import proofs.«100351_j78898549227759_1_alg».proof.Proof.RowOps

noncomputable section

namespace Cert.RowOps

open Idealize.ShloMosaic Idealize.ShloMosaic.ValueIdx Cert.Rows

variable {m n : Nat}

/-- The operand of a reduction along the rows, at the result index `p` with the column put back, is row `p`. -/
theorem lift_row (Z : FVec Ideal ⟨2, ![m, n]⟩ .f32) (hr : (⟨2, ![m, n]⟩ : Shape).Reduces [1] ⟨1, ![m]⟩) (p : Fin m) :
    Z ∘ hr.lift (ix1 p) = row Z p :=
  funext fun q => congrArg Z (Cert.BlockOps.lift_columns hr p q)

/-! ## The kernel's spelling -/

/-- A kernel's row maximum at row `p`. -/
theorem krowMax_apply (Z : FVec Ideal ⟨2, ![m, n]⟩ .f32) (hr : (⟨2, ![m, n]⟩ : Shape).Reduces [1] ⟨1, ![m]⟩)
    (hφ : FKind.Formats .f32) (hmax : (0xFF800000#32 : BitVec 32) = FKind.maximumf.neutral .f32 hφ) (p : Fin m) :
    maximumf (broadcast ⟨1, ![m]⟩ (Scalar.ofBits (F := Ideal) .f32 0xFF800000#32))
        (multiReduction (F := Ideal) .maximumf [1] ⟨1, ![m]⟩ Z 0xFF800000#32 hr hφ hmax) (ix1 p)
      = rowMax (row Z p) := by
  rw [maximumf_apply]
  refine (congrArg (max _) (Ideal.multiReduction_maximumf_single Z _ hr hφ hmax (ix1 p))).trans ?_
  rw [lift_row]
  rfl

/-- A kernel's logarithm of the softmax of a block, at `(p, q)`. -/
theorem klsm_apply (Z : FVec Ideal ⟨2, ![m, n]⟩ .f32)
    (hr : (⟨2, ![m, n]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, n]⟩)
    (p : Fin m) (q : Fin n) :
    subf
        (subf Z (broadcastTo ⟨2, ![m, n]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb))
        (broadcastTo ⟨2, ![m, n]⟩
          (log (shapeCast ⟨2, ![m, 1]⟩
            (multiReduction (F := Ideal) .add [1] ⟨1, ![m]⟩
              (exp (subf Z (broadcastTo ⟨2, ![m, n]⟩ (shapeCast ⟨2, ![m, 1]⟩
                (maximumf (broadcast ⟨1, ![m]⟩ (Scalar.ofBits (F := Ideal) .f32 0xFF800000#32))
                  (multiReduction (F := Ideal) .maximumf [1] ⟨1, ![m]⟩ Z 0xFF800000#32 hr hφ hmax)) hc) hb)))
              0x00000000#32 hr hφ hadd) hc)) hb) (ix2 p q)
      = lsmRow (row Z p) q := by
  have hcen : ∀ t : Fin n,
      subf Z (broadcastTo ⟨2, ![m, n]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb) (ix2 p t)
        = row Z p t - rowMax (row Z p) := fun t => by
    rw [subf_apply, Cert.BlockOps.columnBroadcast_apply, krowMax_apply]
    rfl
  rw [subf_apply, hcen q, Cert.BlockOps.broadcastTo_a1_ab_apply]
  refine congrArg (fun t => row Z p q - rowMax (row Z p) - Ideal.log t) ?_
  refine (shapeCast_apply _ hc (ix2 p (0 : Fin 1)) (ix1 p) (by
    rw [Shape.rowMajor_val_two, Shape.rowMajor_val_one]
    show p.val = p.val * 1 + 0
    omega)).trans ?_
  refine (Cert.BlockOps.rowSum_apply _ hr hφ hadd p).trans ?_
  rw [Ideal.ofBits_zero_f32, zero_add]
  exact Finset.sum_congr rfl fun t _ => congrArg Ideal.exp (hcen t)

/-! ## The host's spelling -/

/-- A vector laid as a column `[m, 1]` by the host, at `(p, 0)`. -/
theorem hcolumn_apply {α : Type} (hc1 : (⟨1, ![m]⟩ : Shape).BroadcastsInDim ⟨2, ![m, 1]⟩ ![0]) (v : (⟨1, ![m]⟩ : Shape).Idx → α)
    (p : Fin m) : broadcastInDim ⟨2, ![m, 1]⟩ ![0] hc1 v (ix2 p (0 : Fin 1)) = v (ix1 p) := by
  refine broadcastInDim_apply ![0] hc1 v (ix2 p (0 : Fin 1)) (ix1 p) fun a => ?_
  match a with
  | ⟨0, _⟩ =>
    show p.val = if m = 1 then 0 else p.val
    split
    · have := p.isLt; omega
    · rfl

/-- A column repeated across `n` columns by the host, at `(p, q)`. -/
theorem hacross_apply {α : Type} (hc2 : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] hc2 v (ix2 p q) = v (ix2 p (0 : Fin 1)) := by
  refine broadcastInDim_apply ![0, 1] hc2 v (ix2 p q) (ix2 p (0 : Fin 1)) fun a => ?_
  match a with
  | ⟨0, _⟩ =>
    show p.val = if m = 1 then 0 else p.val
    split
    · have := p.isLt; omega
    · rfl
  | ⟨1, _⟩ =>
    show (0 : Nat) = if (1 : Nat) = 1 then 0 else q.val
    rw [if_pos rfl]

/-- The host's row maximum at row `p`. -/
theorem hrowMax_apply (Z : FVec Ideal ⟨2, ![m, n]⟩ .f32) (hr' : (⟨2, ![m, n]⟩ : Shape).ReducesTo [1] ⟨1, ![m]⟩)
    (hr : (⟨2, ![m, n]⟩ : Shape).Reduces [1] ⟨1, ![m]⟩) (hu : 0 < (⟨0, ![]⟩ : Shape).numel)
    (hz1 : (⟨0, ![]⟩ : Shape).BroadcastsInDim ⟨1, ![m]⟩ ![]) (p : Fin m) :
    maximumf (broadcastInDim ⟨1, ![m]⟩ ![] hz1 (constant (F := Ideal) ⟨0, ![]⟩ .f32 0xFF800000#32))
        (Host.reduce FloatOps.maximumf Z (constant (F := Ideal) ⟨0, ![]⟩ .f32 0xFF800000#32) hr' hu) (ix1 p)
      = rowMax (row Z p) := by
  rw [maximumf_apply, Host.reduce_eq_fold_single FloatOps.maximumf Z _ hr' hr hu (ix1 p), lift_row]
  rfl

/-- The host's logarithm of the softmax of an array, at `(p, q)`. -/
theorem hlsm_apply (Z : FVec Ideal ⟨2, ![m, n]⟩ .f32) (hr' : (⟨2, ![m, n]⟩ : Shape).ReducesTo [1] ⟨1, ![m]⟩)
    (hr : (⟨2, ![m, n]⟩ : Shape).Reduces [1] ⟨1, ![m]⟩) (hu : 0 < (⟨0, ![]⟩ : Shape).numel)
    (hz1 : (⟨0, ![]⟩ : Shape).BroadcastsInDim ⟨1, ![m]⟩ ![])
    (hc1 : (⟨1, ![m]⟩ : Shape).BroadcastsInDim ⟨2, ![m, 1]⟩ ![0])
    (hc2 : (⟨2, ![m, 1]⟩ : Shape).BroadcastsInDim ⟨2, ![m, n]⟩ ![0, 1]) (p : Fin m) (q : Fin n) :
    subf
        (subf Z (broadcastInDim ⟨2, ![m, n]⟩ ![0, 1] hc2 (broadcastInDim ⟨2, ![m, 1]⟩ ![0] hc1
          (maximumf (broadcastInDim ⟨1, ![m]⟩ ![] hz1 (constant (F := Ideal) ⟨0, ![]⟩ .f32 0xFF800000#32))
            (Host.reduce FloatOps.maximumf Z (constant (F := Ideal) ⟨0, ![]⟩ .f32 0xFF800000#32) hr' hu)))))
        (broadcastInDim ⟨2, ![m, n]⟩ ![0, 1] hc2
          (Host.log (broadcastInDim ⟨2, ![m, 1]⟩ ![0] hc1
            (Host.reduceAdd
              (Host.exp (subf Z (broadcastInDim ⟨2, ![m, n]⟩ ![0, 1] hc2 (broadcastInDim ⟨2, ![m, 1]⟩ ![0] hc1
                (maximumf (broadcastInDim ⟨1, ![m]⟩ ![] hz1 (constant (F := Ideal) ⟨0, ![]⟩ .f32 0xFF800000#32))
                  (Host.reduce FloatOps.maximumf Z (constant (F := Ideal) ⟨0, ![]⟩ .f32 0xFF800000#32) hr' hu))))))
              (constant (F := Ideal) ⟨0, ![]⟩ .f32 0x00000000#32) hr' hu)))) (ix2 p q)
      = lsmRow (row Z p) q := by
  have hcen : ∀ t : Fin n,
      subf Z (broadcastInDim ⟨2, ![m, n]⟩ ![0, 1] hc2 (broadcastInDim ⟨2, ![m, 1]⟩ ![0] hc1
          (maximumf (broadcastInDim ⟨1, ![m]⟩ ![] hz1 (constant (F := Ideal) ⟨0, ![]⟩ .f32 0xFF800000#32))
            (Host.reduce FloatOps.maximumf Z (constant (F := Ideal) ⟨0, ![]⟩ .f32 0xFF800000#32) hr' hu)))) (ix2 p t)
        = row Z p t - rowMax (row Z p) := fun t => by
    rw [subf_apply, hacross_apply, hcolumn_apply, hrowMax_apply Z hr' hr hu hz1 p]
    rfl
  rw [subf_apply, hcen q, hacross_apply]
  refine congrArg (fun t => row Z p q - rowMax (row Z p) - Ideal.log t) ?_
  refine (hcolumn_apply hc1 _ p).trans ?_
  refine (Ideal.hostReduceAdd_single hr' hr _ _ (ix1 p)).trans ?_
  refine congrArg (fun t => Ideal.ofBits .f32 0x00000000#32 + t) ?_
  refine Finset.sum_congr rfl fun t _ => ?_
  have hl : hr.lift (ix1 p) t = ix2 p t := Cert.BlockOps.lift_columns hr p t
  rw [hl]
  exact congrArg Ideal.exp (hcen t)

end Cert.RowOps

end
-- ==== Proof.KReg3.lean ====
/-
  The classifier stage: what its pipeline leaves in the result array.

  Grid point `t` reads rows `4000·t … 4000·t + 3999` of the node embeddings and the whole of the classifier's weight and
  one-row bias; it writes the same rows of the result. Over the extended reals the block's computation is, row by row,
  the dense layer with bias followed by the logarithm of the softmax of the row (`finRow`). The 25 blocks tile the array,
  so the result array is that function of the whole arrays, row by row (`finArr`).
-/
import proofs.«100351_j78898549227759_1_alg».proof.Proof.Gen.KernelIdeal.Frame
import proofs.«100351_j78898549227759_1_alg».proof.Proof.RowLsm
import Idealize.ShloMosaic.Lib.Pipeline.Value

noncomputable section

namespace Cert.KernelIdeal.Reg3

open Idealize.ShloMosaic Idealize.ShloMosaic.ValueIdx Idealize.ShloMosaic.TcCoe Idealize.SL.Sem Cert.KernelIdeal Cert.KernelIdeal.Gen Cert.Rows Cert.RowOps
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic, row by row -/

/-- The block of logits: the embeddings times the weight, plus the bias on every row. -/
def logits (v0 : FVec Ideal S4000x64 .f32) (v3 : FVec Ideal S64x40 .f32) (v6 : FVec Ideal S1x40 .f32) : FVec Ideal S4000x40 .f32 :=
  addf (matmul (F := Ideal) dot_S4000x64_S64x40_S4000x40_1_0_0_1_n_n none
      (truncf .bf16 (shapeCast S4000x64 v0 Facts₀.shapeCasts_S4000x64_S4000x64) Facts₀.bitsLt_bf16_f32)
      (truncf .bf16 v3 Facts₀.bitsLt_bf16_f32) (constant S4000x40 .f32 0x00000000#32))
    (broadcastTo S4000x40 (shapeCast S1x40 v6 Facts₀.shapeCasts_S1x40_S1x40) Facts₀.broadcasts_S1x40_S4000x40)

/-- Row `p` of the logits. -/
theorem logits_row (v0 : FVec Ideal S4000x64 .f32) (v3 : FVec Ideal S64x40 .f32) (v6 : FVec Ideal S1x40 .f32) (p : Fin 4000) :
    row (logits v0 v3 v6) p = fun j => dense v3 (row v0 p) j + v6 (ix2 (0 : Fin 1) j) :=
  funext fun j => by
    show logits v0 v3 v6 (ix2 p j) = _
    unfold logits
    rw [addf_apply, shapeCast_self v0, kmatmul_apply dot_S4000x64_S64x40_S4000x40_1_0_0_1_n_n rfl, kbias_apply]

/-- The block's result at `(p, q)`: the classifier row function of row `p` of the embedding block. -/
theorem pay_apply (v0 : FVec Ideal S4000x64 .f32) (v3 : FVec Ideal S64x40 .f32) (v6 : FVec Ideal S1x40 .f32)
    (p : Fin 4000) (q : Fin 40) :
    k3_pay1 (F := Ideal) v0 v3 v6 (ix2 p q) = finRow v3 (fun j => v6 (ix2 (0 : Fin 1) j)) (row v0 p) q := by
  unfold k3_pay1
  refine (klsm_apply (logits v0 v3 v6) Facts₀.reduces_S4000x40_S4000 (.inl rfl) rfl rfl Facts₀.shapeCasts_S4000_S4000x1
    Facts₀.broadcasts_S4000x1_S4000x40 p q).trans ?_
  rw [logits_row]
  rfl

/-! ## From the blocks to the array -/

/-- The printed index maps over the grid: the embedding window and the result window sit at block row `t`, the weight
    and the bias at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the embedding block at point `t` is row `4000·t + p` of the embedding array. -/
theorem x_row (c : Dev nD) (t : Fin cfg3.N) (p : Fin 4000) (r : Fin 100000) (hr : r.val = t.val * 4000 + p.val) :
    row (iblk3 V c 0 t) p = row (V c main_v76) r := funext fun k => by
  obtain ⟨e0, e1, -⟩ := idx_facts t
  show V c main_v76 (((cfg3.win 0).blk t).view.emb (ix2 p k)) = V c main_v76 (ix2 r k)
  refine congrArg _ (funext fun a => Fin.ext ?_)
  match a with
  | ⟨0, _⟩ => show win3_0.index t (0 : Fin 2) * 4000 + 1 * p.val = r.val; omega
  | ⟨1, _⟩ => show win3_0.index t (1 : Fin 2) * 64 + 1 * k.val = k.val; omega

/-- The weight's block at any point is the weight array. -/
theorem w_whole (c : Dev nD) (t : Fin cfg3.N) : iblk3 V c 1 t = V c main_arg10 := funext fun y => by
  obtain ⟨k, q, rfl⟩ : ∃ (k : Fin 64) (q : Fin 40), y = ix2 k q := ⟨y 0, y 1, eq_ix2 y⟩
  obtain ⟨-, -, e2, e3, -⟩ := idx_facts t
  show V c main_arg10 (((cfg3.win 1).blk t).view.emb (ix2 k q)) = V c main_arg10 (ix2 k q)
  refine congrArg _ (funext fun a => Fin.ext ?_)
  match a with
  | ⟨0, _⟩ => show win3_1.index t (0 : Fin 2) * 64 + 1 * k.val = k.val; omega
  | ⟨1, _⟩ => show win3_1.index t (1 : Fin 2) * 40 + 1 * q.val = q.val; omega

/-- The bias's block at any point is the one-row bias array. -/
theorem b_whole (c : Dev nD) (t : Fin cfg3.N) : iblk3 V c 2 t = V c main_v77 := funext fun y => by
  obtain ⟨k, q, rfl⟩ : ∃ (k : Fin 1) (q : Fin 40), y = ix2 k q := ⟨y 0, y 1, eq_ix2 y⟩
  obtain ⟨-, -, -, -, e4, e5, -⟩ := idx_facts t
  show V c main_v77 (((cfg3.win 2).blk t).view.emb (ix2 k q)) = V c main_v77 (ix2 k q)
  refine congrArg _ (funext fun a => Fin.ext ?_)
  match a with
  | ⟨0, _⟩ => show win3_2.index t (0 : Fin 2) * 1 + 1 * k.val = k.val; omega
  | ⟨1, _⟩ => show win3_2.index t (1 : Fin 2) * 40 + 1 * q.val = q.val; omega

/-- The stage's result as a function of the arrays the region finds. -/
abbrev G (c : Dev nD) : S100000x40.Idx → EReal :=
  finArr (V c main_arg10) (fun j => V c main_v77 (ix2 (0 : Fin 1) j)) (V c main_v76)

/-- What point `t` computes at `y` of its block is the whole-array function at the block's element `y`. -/
theorem point_eq (c : Dev nD) (t : Fin cfg3.N) (y : S4000x40.Idx) :
    k3_pay1 (F := Ideal) (iblk3 V c 0 t) (iblk3 V c 1 t) (iblk3 V c 2 t) y = G V c (((cfg3.win 3).blk t).view.emb y) := by
  obtain ⟨p, q, rfl⟩ : ∃ (p : Fin 4000) (q : Fin 40), y = ix2 p q := ⟨y 0, y 1, eq_ix2 y⟩
  obtain ⟨-, -, -, -, -, -, e6, e7⟩ := idx_facts t
  have hq : (((cfg3.win 3).blk t).view.emb (ix2 p q)) 1 = q :=
    Fin.ext (by show win3_3.index t (1 : Fin 2) * 40 + 1 * q.val = q.val; omega)
  refine (pay_apply _ _ _ p q).trans ?_
  rw [w_whole V c t, b_whole V c t,
    x_row V c t p ((((cfg3.win 3).blk t).view.emb (ix2 p q)) 0) (by
      show win3_3.index t (0 : Fin 2) * 4000 + 1 * p.val = t.val * 4000 + p.val; omega)]
  show _ = finRow _ _ _ ((((cfg3.win 3).blk t).view.emb (ix2 p q)) 1)
  rw [hq]

/-- What point `t` writes back is block `t` of the whole-array function. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S4000x64) hz, View.ld_unit_zero (S := S64x40) hz, View.ld_unit_zero (S := S1x40) hz]
  funext j
  exact point_eq V c t j

/-- An index of the result array is in point `t`'s block iff each coordinate is in the block's range. -/
theorem mem_blk (t : Fin cfg3.N) (i : S100000x40.Idx) :
    i ∈ ((cfg3.win 3).blk t).view.set ↔ ∀ a : Fin 2, win3_3.index t a * S4000x40.size a ≤ (i a).val ∧ (i a).val < win3_3.index t a * S4000x40.size a + S4000x40.size a := by
  show i ∈ ((View.whole main_v78).slice (win3_3.rect t)).set ↔ _
  rw [View.set_slice_whole, Rect.mem_set_unit]
  exact Iff.rfl

/-- Every row of the result array is in the block of the point `row / 4000`. -/
theorem cover (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have hN : cfg3.N = 25 := N_3
  refine ⟨⟨(i 0).val / 4000, by rw [hN]; omega⟩, flush3_3 _, ?_⟩
  rw [mem_blk]
  obtain ⟨-, -, -, -, -, -, e6, e7⟩ := idx_facts ⟨(i 0).val / 4000, by rw [hN]; omega⟩
  intro a
  match a with
  | ⟨0, _⟩ =>
    show win3_3.index _ (0 : Fin 2) * 4000 ≤ (i 0).val ∧ (i 0).val < win3_3.index _ (0 : Fin 2) * 4000 + 4000
    rw [e6]; show (i 0).val / 4000 * 4000 ≤ (i 0).val ∧ (i 0).val < (i 0).val / 4000 * 4000 + 4000; omega
  | ⟨1, _⟩ =>
    show win3_3.index _ (1 : Fin 2) * 40 ≤ (i 1).val ∧ (i 1).val < win3_3.index _ (1 : Fin 2) * 40 + 40
    rw [e7]; omega

/-- The result array after the stage. -/
theorem final (c : Dev nD) : (dat3 V c).arrAt 3 cfg3.N = G V c :=
  (dat3 V c).arrAt_eq_of_cover 3 _ (fun t _ => flushed_eq V c t) (cover)

end Cert.KernelIdeal.Reg3

end
-- ==== Proof.Spec.lean ====
/-
  The network as one function of its twelve arguments, over the extended reals.

  `x` are the node features, `e` the edge list; then come the perceptron's two weights and biases, the two graph
  convolutions' weights and biases, and the classifier's weight and bias.

  • `hidden1`: the perceptron of every node's features plus its neighbours' aggregate.
  • `hidden2`, `embed`: two graph convolutions — a linear transform (row by row), then the normalized aggregation over
    the edges with self loops, plus the bias. `embed` is the second result of the network.
  • `logProbs`: the classifier's dense layer with bias, then the logarithm of the softmax of every row: the first result.
  The edge rows with self loops and the normalization depend on the edge list only.
-/
import proofs.«100351_j78898549227759_1_alg».proof.Proof.HostChain
import proofs.«100351_j78898549227759_1_alg».proof.Proof.Rows

noncomputable section

namespace Cert.Net

open Idealize.ShloMosaic Idealize.ShloMosaic.ValueIdx Cert.KernelIdeal Cert.Chain Cert.Rows

variable [Cert.KernelIdeal.Facts]

/-- A bias vector as a function of the column. -/
def biasOf {n : Nat} (b : FVec Ideal ⟨1, ![n]⟩ .f32) : Fin n → EReal := fun j => b (ix1 j)

/-- The sources with self loops. -/
def sOf (e : IVec S2x1600000 32) : IVec S1700000 32 := withLoops (srcOf e)
/-- The destinations with self loops. -/
def dOf (e : IVec S2x1600000 32) : IVec S1700000 32 := withLoops (dstOf e)
/-- The symmetric normalization of the graph with self loops. -/
def nrmOf (e : IVec S2x1600000 32) : FVec Ideal S1700000 .f32 := normOf (F := Ideal) (sOf e) (dOf e)

/-- After the perceptron. -/
def hidden1 (x : FVec Ideal S100000x64 .f32) (e : IVec S2x1600000 32) (W1a : FVec Ideal S64x64 .f32) (b1a : FVec Ideal S64 .f32)
    (W1b : FVec Ideal S64x64 .f32) (b1b : FVec Ideal S64 .f32) : FVec Ideal S100000x64 .f32 :=
  mlpArr W1a W1b (biasOf b1a) (biasOf b1b) x (agg (F := Ideal) x e)

/-- One graph convolution of the features `h`. -/
def conv (h : FVec Ideal S100000x64 .f32) (e : IVec S2x1600000 32) (W : FVec Ideal S64x64 .f32) (b : FVec Ideal S64 .f32) :
    FVec Ideal S100000x64 .f32 :=
  convOf (F := Ideal) (mmArr W h) (sOf e) (dOf e) (nrmOf e) b

/-- After the first graph convolution. -/
def hidden2 (x : FVec Ideal S100000x64 .f32) (e : IVec S2x1600000 32) (W1a : FVec Ideal S64x64 .f32) (b1a : FVec Ideal S64 .f32)
    (W1b : FVec Ideal S64x64 .f32) (b1b : FVec Ideal S64 .f32) (Wg2 : FVec Ideal S64x64 .f32) (bg2 : FVec Ideal S64 .f32) :
    FVec Ideal S100000x64 .f32 :=
  conv (hidden1 x e W1a b1a W1b b1b) e Wg2 bg2

/-- The node embeddings: after the second graph convolution. -/
def embed (x : FVec Ideal S100000x64 .f32) (e : IVec S2x1600000 32) (W1a : FVec Ideal S64x64 .f32) (b1a : FVec Ideal S64 .f32)
    (W1b : FVec Ideal S64x64 .f32) (b1b : FVec Ideal S64 .f32) (Wg2 : FVec Ideal S64x64 .f32) (bg2 : FVec Ideal S64 .f32)
    (Wg3 : FVec Ideal S64x64 .f32) (bg3 : FVec Ideal S64 .f32) : FVec Ideal S100000x64 .f32 :=
  conv (hidden2 x e W1a b1a W1b b1b Wg2 bg2) e Wg3 bg3

/-- The class log-probabilities of a given embedding array. -/
def logProbs (h : FVec Ideal S100000x64 .f32) (Wl : FVec Ideal S64x40 .f32) (bl : FVec Ideal S40 .f32) :
    FVec Ideal S100000x40 .f32 :=
  finArr Wl (biasOf bl) h

end Cert.Net

end
-- ==== Proof.KValue.lean ====
/-
  The kernel program's two results as functions of its arguments.

  The program's buffers are followed from the launch to the return, boundary by boundary: a host stretch rewrites the
  buffers it computes (KHost.lean) and leaves the others alone; a dense stage's pipeline leaves its result array at the
  row-by-row function of the arrays it reads (KReg0 … KReg3) and every other buffer as it found it. At the return the
  embedding buffer holds `Net.embed` of the arguments and the log-probability buffer `Net.logProbs` of that embedding.
-/
import proofs.«100351_j78898549227759_1_alg».proof.Proof.Gen.KernelIdeal.Frame
import proofs.«100351_j78898549227759_1_alg».proof.Proof.KHost
import proofs.«100351_j78898549227759_1_alg».proof.Proof.KReg0
import proofs.«100351_j78898549227759_1_alg».proof.Proof.KReg1
import proofs.«100351_j78898549227759_1_alg».proof.Proof.KReg2
import proofs.«100351_j78898549227759_1_alg».proof.Proof.KReg3
import proofs.«100351_j78898549227759_1_alg».proof.Proof.Spec
import Idealize.ShloMosaic.Lib.ValueLayout

noncomputable section

namespace Cert.KernelIdeal.KValue

open Idealize.ShloMosaic Idealize.ShloMosaic.ValueIdx Idealize.ShloMosaic.TcCoe Idealize.ShloMosaic.StableHlo Idealize.SL.Sem
open Cert.KernelIdeal Cert.KernelIdeal.Gen Cert.KernelIdeal.HostRead Cert.Chain Cert.Rows Cert.Net

variable (m : (ℓ : Loc nD τ sig) → Buf (Elt Ideal) ℓ) (ρ : Dev nD → PrngReg) (c : Dev nD)

/-! ## What each boundary keeps -/

theorem keep1 (b : Ref sig .tc) (h : b ∉ (hostOps0_W : List (Ref sig .tc))) :
    W1 m ρ c (Proc.devRef .tc b) = m ((c : Thread nD τ).loc b) := hostOps0_keep (W0 m ρ c) b h

theorem keep2 (b : Ref sig .tc) (h : b ∉ (hostOps0_W : List (Ref sig .tc))) (h0 : ∀ w, Pipeline.arrRef spec0 w ≠ b) :
    W2 m ρ c (Proc.devRef .tc b) = m ((c : Thread nD τ).loc b) := (W2_of_ne m ρ c b h0).trans (keep1 m ρ c b h)

theorem step5 (b : Ref sig .tc) (h1 : b ∉ (hostOps1_W : List (Ref sig .tc))) (h11 : b ∉ (hostOps1_1_W : List (Ref sig .tc)))
    (h12 : b ∉ (hostOps1_2_W : List (Ref sig .tc))) :
    W5 m ρ c (Proc.devRef .tc b) = W2 m ρ c (Proc.devRef .tc b) :=
  (hostOps1_2_keep (W4 m ρ c) b h12).trans ((hostOps1_1_keep (W3 m ρ c) b h11).trans (hostOps1_keep (W2 m ρ c) b h1))

theorem keep5 (b : Ref sig .tc) (h : b ∉ (hostOps0_W : List (Ref sig .tc))) (h0 : ∀ w, Pipeline.arrRef spec0 w ≠ b)
    (h1 : b ∉ (hostOps1_W : List (Ref sig .tc))) (h11 : b ∉ (hostOps1_1_W : List (Ref sig .tc)))
    (h12 : b ∉ (hostOps1_2_W : List (Ref sig .tc))) :
    W5 m ρ c (Proc.devRef .tc b) = m ((c : Thread nD τ).loc b) := (step5 m ρ c b h1 h11 h12).trans (keep2 m ρ c b h h0)

theorem keep6 (b : Ref sig .tc) (h : b ∉ (hostOps0_W : List (Ref sig .tc))) (h0 : ∀ w, Pipeline.arrRef spec0 w ≠ b)
    (h1 : b ∉ (hostOps1_W : List (Ref sig .tc))) (h11 : b ∉ (hostOps1_1_W : List (Ref sig .tc)))
    (h12 : b ∉ (hostOps1_2_W : List (Ref sig .tc))) (h5 : ∀ w, Pipeline.arrRef spec1 w ≠ b) :
    W6 m ρ c (Proc.devRef .tc b) = m ((c : Thread nD τ).loc b) :=
  (W6_of_ne m ρ c b h5).trans (keep5 m ρ c b h h0 h1 h11 h12)

theorem keep7 (b : Ref sig .tc) (h : b ∉ (hostOps0_W : List (Ref sig .tc))) (h0 : ∀ w, Pipeline.arrRef spec0 w ≠ b)
    (h1 : b ∉ (hostOps1_W : List (Ref sig .tc))) (h11 : b ∉ (hostOps1_1_W : List (Ref sig .tc)))
    (h12 : b ∉ (hostOps1_2_W : List (Ref sig .tc))) (h5 : ∀ w, Pipeline.arrRef spec1 w ≠ b)
    (h6 : b ∉ (hostOps2_W : List (Ref sig .tc))) :
    W7 m ρ c (Proc.devRef .tc b) = m ((c : Thread nD τ).loc b) :=
  (hostOps2_keep (W6 m ρ c) b h6).trans (keep6 m ρ c b h h0 h1 h11 h12 h5)

theorem keep8 (b : Ref sig .tc) (h : b ∉ (hostOps0_W : List (Ref sig .tc))) (h0 : ∀ w, Pipeline.arrRef spec0 w ≠ b)
    (h1 : b ∉ (hostOps1_W : List (Ref sig .tc))) (h11 : b ∉ (hostOps1_1_W : List (Ref sig .tc)))
    (h12 : b ∉ (hostOps1_2_W : List (Ref sig .tc))) (h5 : ∀ w, Pipeline.arrRef spec1 w ≠ b)
    (h6 : b ∉ (hostOps2_W : List (Ref sig .tc))) (h7 : ∀ w, Pipeline.arrRef spec2 w ≠ b) :
    W8 m ρ c (Proc.devRef .tc b) = m ((c : Thread nD τ).loc b) :=
  (W8_of_ne m ρ c b h7).trans (keep7 m ρ c b h h0 h1 h11 h12 h5 h6)

theorem keep9 (b : Ref sig .tc) (h : b ∉ (hostOps0_W : List (Ref sig .tc))) (h0 : ∀ w, Pipeline.arrRef spec0 w ≠ b)
    (h1 : b ∉ (hostOps1_W : List (Ref sig .tc))) (h11 : b ∉ (hostOps1_1_W : List (Ref sig .tc)))
    (h12 : b ∉ (hostOps1_2_W : List (Ref sig .tc))) (h5 : ∀ w, Pipeline.arrRef spec1 w ≠ b)
    (h6 : b ∉ (hostOps2_W : List (Ref sig .tc))) (h7 : ∀ w, Pipeline.arrRef spec2 w ≠ b)
    (h8 : b ∉ (hostOps3_W : List (Ref sig .tc))) :
    W9 m ρ c (Proc.devRef .tc b) = m ((c : Thread nD τ).loc b) :=
  (hostOps3_keep (W8 m ρ c) b h8).trans (keep8 m ρ c b h h0 h1 h11 h12 h5 h6 h7)

/-! ## A one-row bias is the bias vector -/

theorem biasRow {n : Nat} (b : FVec Ideal ⟨1, ![n]⟩ .f32) (h : (⟨1, ![n]⟩ : Shape).ShapeCasts ⟨2, ![1, n]⟩) :
    (fun j : Fin n => shapeCast ⟨2, ![1, n]⟩ b h (ix2 (0 : Fin 1) j)) = biasOf b :=
  funext fun j => shapeCast_a_1a_apply b h 0 j

/-! ## The perceptron stage -/

theorem W1_v13 : W1 m ρ c (Proc.devRef .tc main_v13) = agg (F := Ideal) (m ((c : Thread nD τ).loc main_arg0)) (m ((c : Thread nD τ).loc main_arg1)) := ops0_v13 (W0 m ρ c)
theorem W1_v14 : W1 m ρ c (Proc.devRef .tc main_v14) = shapeCast S1x64 ((m ((c : Thread nD τ).loc main_arg3)) : FVec Ideal S64 .f32) Facts₀.shapeCasts_S64_S1x64 :=
  ops0_v14 (W0 m ρ c)
theorem W1_v15 : W1 m ρ c (Proc.devRef .tc main_v15) = shapeCast S1x64 ((m ((c : Thread nD τ).loc main_arg5)) : FVec Ideal S64 .f32) Facts₀.shapeCasts_S64_S1x64 :=
  ops0_v15 (W0 m ρ c)
theorem W1_v1 : W1 m ρ c (Proc.devRef .tc main_v1) = srcOf (m ((c : Thread nD τ).loc main_arg1)) := ops0_v1 (W0 m ρ c)
theorem W1_v3 : W1 m ρ c (Proc.devRef .tc main_v3) = dstOf (m ((c : Thread nD τ).loc main_arg1)) := ops0_v3 (W0 m ρ c)

/-- After the perceptron stage its result buffer holds `hidden1` of the arguments. -/
theorem W2_v16 : W2 m ρ c (Proc.devRef .tc main_v16)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((Reg0.final (V1 m ρ) c).trans ?_)
  show mlpArr (W1 m ρ c (Proc.devRef .tc main_arg2)) (W1 m ρ c (Proc.devRef .tc main_arg4))
      (fun j => W1 m ρ c (Proc.devRef .tc main_v14) (ix2 (0 : Fin 1) j)) (fun j => W1 m ρ c (Proc.devRef .tc main_v15) (ix2 (0 : Fin 1) j))
      (W1 m ρ c (Proc.devRef .tc main_arg0)) (W1 m ρ c (Proc.devRef .tc main_v13)) = _
  rw [keep1 m ρ c main_arg2 (by decide), keep1 m ρ c main_arg4 (by decide), keep1 m ρ c main_arg0 (by decide),
    W1_v13, W1_v14, W1_v15, biasRow, biasRow]
  rfl

/-! ## The normalization and the first graph convolution -/

theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)

theorem W5_v18 : W5 m ρ c (Proc.devRef .tc main_v18) = sOf (m ((c : Thread nD τ).loc main_arg1)) := by
  refine (norm_v18 (W2 m ρ c)).trans ?_
  rw [W2_v1]; rfl
theorem W5_v19 : W5 m ρ c (Proc.devRef .tc main_v19) = dOf (m ((c : Thread nD τ).loc main_arg1)) := by
  refine (norm_v19 (W2 m ρ c)).trans ?_
  rw [W2_v3]; rfl
theorem W5_v42 : W5 m ρ c (Proc.devRef .tc main_v42) = nrmOf (m ((c : Thread nD τ).loc main_arg1)) := by
  refine (norm_v42 (W2 m ρ c)).trans ?_
  rw [W2_v1, W2_v3]; rfl
theorem W5_v16 : W5 m ρ c (Proc.devRef .tc main_v16)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (step5 m ρ c main_v16 (by decide) (by decide) (by decide)).trans (W2_v16 m ρ c)

theorem W6_v43 : W6 m ρ c (Proc.devRef .tc main_v43)
    = mmArr (m ((c : Thread nD τ).loc main_arg6)) (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W6_arr m ρ c 2).trans ((Reg1.final (V5 m ρ) c).trans ?_)
  show mmArr (W5 m ρ c (Proc.devRef .tc main_arg6)) (W5 m ρ c (Proc.devRef .tc main_v16)) = _
  rw [keep5 m ρ c main_arg6 (by decide) (by decide) (by decide) (by decide) (by decide), W5_v16]

theorem W6_v18 : W6 m ρ c (Proc.devRef .tc main_v18) = sOf (m ((c : Thread nD τ).loc main_arg1)) :=
  (W6_of_ne m ρ c main_v18 (by decide)).trans (W5_v18 m ρ c)
theorem W6_v19 : W6 m ρ c (Proc.devRef .tc main_v19) = dOf (m ((c : Thread nD τ).loc main_arg1)) :=
  (W6_of_ne m ρ c main_v19 (by decide)).trans (W5_v19 m ρ c)
theorem W6_v42 : W6 m ρ c (Proc.devRef .tc main_v42) = nrmOf (m ((c : Thread nD τ).loc main_arg1)) :=
  (W6_of_ne m ρ c main_v42 (by decide)).trans (W5_v42 m ρ c)

/-- After the first graph convolution's aggregation: `hidden2` of the arguments. -/
theorem W7_v59 : W7 m ρ c (Proc.devRef .tc main_v59)
    = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (ops2_v59 (W6 m ρ c)).trans ?_
  rw [W6_v43, W6_v18, W6_v19, W6_v42,
    keep6 m ρ c main_arg7 (by decide) (by decide) (by decide) (by decide) (by decide) (by decide)]
  rfl

/-! ## The second graph convolution -/

theorem W7_v18 : W7 m ρ c (Proc.devRef .tc main_v18) = sOf (m ((c : Thread nD τ).loc main_arg1)) :=
  (hostOps2_keep (W6 m ρ c) main_v18 (by decide)).trans (W6_v18 m ρ c)
theorem W7_v19 : W7 m ρ c (Proc.devRef .tc main_v19) = dOf (m ((c : Thread nD τ).loc main_arg1)) :=
  (hostOps2_keep (W6 m ρ c) main_v19 (by decide)).trans (W6_v19 m ρ c)
theorem W7_v42 : W7 m ρ c (Proc.devRef .tc main_v42) = nrmOf (m ((c : Thread nD τ).loc main_arg1)) :=
  (hostOps2_keep (W6 m ρ c) main_v42 (by decide)).trans (W6_v42 m ρ c)

theorem W8_v60 : W8 m ρ c (Proc.devRef .tc main_v60)
    = mmArr (m ((c : Thread nD τ).loc main_arg8)) (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W8_arr m ρ c 2).trans ((Reg2.final (V7 m ρ) c).trans ?_)
  show mmArr (W7 m ρ c (Proc.devRef .tc main_arg8)) (W7 m ρ c (Proc.devRef .tc main_v59)) = _
  rw [keep7 m ρ c main_arg8 (by decide) (by decide) (by decide) (by decide) (by decide) (by decide) (by decide), W7_v59]

theorem W8_v18 : W8 m ρ c (Proc.devRef .tc main_v18) = sOf (m ((c : Thread nD τ).loc main_arg1)) :=
  (W8_of_ne m ρ c main_v18 (by decide)).trans (W7_v18 m ρ c)
theorem W8_v19 : W8 m ρ c (Proc.devRef .tc main_v19) = dOf (m ((c : Thread nD τ).loc main_arg1)) :=
  (W8_of_ne m ρ c main_v19 (by decide)).trans (W7_v19 m ρ c)
theorem W8_v42 : W8 m ρ c (Proc.devRef .tc main_v42) = nrmOf (m ((c : Thread nD τ).loc main_arg1)) :=
  (W8_of_ne m ρ c main_v42 (by decide)).trans (W7_v42 m ρ c)

/-- After the second graph convolution's aggregation: the node embeddings. -/
theorem W9_v76 : W9 m ρ c (Proc.devRef .tc main_v76)
    = embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (ops3_v76 (W8 m ρ c)).trans ?_
  rw [W8_v60, W8_v18, W8_v19, W8_v42,
    keep8 m ρ c main_arg9 (by decide) (by decide) (by decide) (by decide) (by decide) (by decide) (by decide) (by decide)]
  rfl

theorem W9_v77 : W9 m ρ c (Proc.devRef .tc main_v77)
    = shapeCast S1x40 ((m ((c : Thread nD τ).loc main_arg11)) : FVec Ideal S40 .f32) Facts₀.shapeCasts_S40_S1x40 := by
  refine (ops3_v77 (W8 m ρ c)).trans ?_
  rw [keep8 m ρ c main_arg11 (by decide) (by decide) (by decide) (by decide) (by decide) (by decide) (by decide) (by decide)]

/-! ## The results at the return -/

/-- The embedding buffer at the return: the classifier stage reads it and leaves it as it found it. -/
theorem W10_v76 : W10 m ρ c (Proc.devRef .tc main_v76)
    = embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_arr m ρ c 0).trans (((dat3 (V9 m ρ) c).arrAt_in 0 rfl _).trans ((A_eq3 (V9 m ρ) c 0).trans (W9_v76 m ρ c)))

/-- The log-probability buffer at the return. -/
theorem W10_v78 : W10 m ρ c (Proc.devRef .tc main_v78)
    = logProbs (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) := by
  refine (W10_arr m ρ c 3).trans ((Reg3.final (V9 m ρ) c).trans ?_)
  show finArr (W9 m ρ c (Proc.devRef .tc main_arg10)) (fun j => W9 m ρ c (Proc.devRef .tc main_v77) (ix2 (0 : Fin 1) j))
      (W9 m ρ c (Proc.devRef .tc main_v76)) = _
  rw [keep9 m ρ c main_arg10 (by decide) (by decide) (by decide) (by decide) (by decide) (by decide) (by decide) (by decide) (by decide),
    W9_v77, W9_v76, biasRow]
  rfl

end Cert.KernelIdeal.KValue

end
-- ==== Proof.RefValue.lean ====
/-
  The reference program's two results as functions of its arguments.

  The reference is one line of host operations; its buffers after the run are the fold of the operations' results over the
  launch contents (RefRun.lean). The line is read in ten segments. The graph segments (aggregate, normalization,
  convolution aggregations) are the same host operations as the kernel program's stretches, spelt with this program's
  own shape facts: they are the functions of HostChain.lean by unfolding. The dense segments (`dot_general`s with bias and
  rectifier, the classifier with the logarithm of the softmax) are read at an index as the row functions of Rows.lean
  (RowOps.lean, RowLsm.lean). At the end the embedding buffer holds `Net.embed` of the arguments and the log-probability
  buffer `Net.logProbs` of that embedding — the same functions the kernel program's results are.
-/
import proofs.«100351_j78898549227759_1_alg».proof.Proof.RefRun
import proofs.«100351_j78898549227759_1_alg».proof.Proof.Gen.KernelIdeal
import proofs.«100351_j78898549227759_1_alg».proof.Proof.Spec
import proofs.«100351_j78898549227759_1_alg».proof.Proof.RowLsm
import proofs.«100351_j78898549227759_1_alg».proof.Proof.LibFoldRead

noncomputable section

namespace Cert.ReferenceIdeal.RefValue

open Idealize.ShloMosaic Idealize.ShloMosaic.ValueIdx Idealize.ShloMosaic.TcCoe Idealize.ShloMosaic.StableHlo Idealize.SL.Sem
open Cert.ReferenceIdeal Cert.ReferenceIdeal.Gen Cert.ReferenceIdeal.Fold Cert.Chain Cert.Rows Cert.RowOps Cert.Net

/-! ## The dense segments as whole-array functions -/

/-- The perceptron's first layer as the reference prints it. -/
def refHidden (x a : FVec Ideal S100000x64 .f32) (W1 : FVec Ideal S64x64 .f32) (b1 : FVec Ideal S64 .f32) : FVec Ideal S100000x64 .f32 :=
  maximumf
    (addf (Host.dotGeneral dot_S100000x64_S64x64_S100000x64_1_0_0_1_n_n none (addf x a) W1)
      (broadcastInDim S100000x64 ![0, 1] Facts₀.bcast_S1x64_S100000x64_0_1 (broadcastInDim S1x64 ![1] Facts₀.bcast_S64_S1x64_1 b1)))
    (broadcastInDim S100000x64 ![] Facts₀.bcast_S_S100000x64 (constant (F := Ideal) S_ .f32 0x00000000#32))

/-- The perceptron as the reference prints it. -/
def refMlp (x a : FVec Ideal S100000x64 .f32) (W1 : FVec Ideal S64x64 .f32) (b1 : FVec Ideal S64 .f32)
    (W2 : FVec Ideal S64x64 .f32) (b2 : FVec Ideal S64 .f32) : FVec Ideal S100000x64 .f32 :=
  maximumf
    (addf (Host.dotGeneral dot_S100000x64_S64x64_S100000x64_1_0_0_1_n_n none (refHidden x a W1 b1) W2)
      (broadcastInDim S100000x64 ![0, 1] Facts₀.bcast_S1x64_S100000x64_0_1 (broadcastInDim S1x64 ![1] Facts₀.bcast_S64_S1x64_1 b2)))
    (broadcastInDim S100000x64 ![] Facts₀.bcast_S_S100000x64 (constant (F := Ideal) S_ .f32 0x00000000#32))

theorem refHidden_row (x a : FVec Ideal S100000x64 .f32) (W1 : FVec Ideal S64x64 .f32) (b1 : FVec Ideal S64 .f32) (p : Fin 100000) :
    row (refHidden x a W1 b1) p = relu0 (fun i => dense W1 (fun t => row x p t + row a p t) i + biasOf b1 i) :=
  funext fun i => by
    show refHidden x a W1 b1 (ix2 p i) = _
    unfold refHidden
    exact hlayer_apply dot_S100000x64_S64x64_S100000x64_1_0_0_1_n_n rfl Facts₀.bcast_S_S100000x64 Facts₀.bcast_S64_S1x64_1
      Facts₀.bcast_S1x64_S100000x64_0_1 (addf x a) W1 b1 p i

/-- The reference's perceptron is the row-by-row perceptron. -/
theorem refMlp_eq (x a : FVec Ideal S100000x64 .f32) (W1 : FVec Ideal S64x64 .f32) (b1 : FVec Ideal S64 .f32)
    (W2 : FVec Ideal S64x64 .f32) (b2 : FVec Ideal S64 .f32) :
    refMlp x a W1 b1 W2 b2 = mlpArr W1 W2 (biasOf b1) (biasOf b2) x a := by
  funext i
  obtain ⟨p, q, rfl⟩ : ∃ (p : Fin 100000) (q : Fin 64), i = ix2 p q := ⟨i 0, i 1, eq_ix2 i⟩
  unfold refMlp
  refine (hlayer_apply dot_S100000x64_S64x64_S100000x64_1_0_0_1_n_n rfl Facts₀.bcast_S_S100000x64 Facts₀.bcast_S64_S1x64_1
    Facts₀.bcast_S1x64_S100000x64_0_1 (refHidden x a W1 b1) W2 b2 p q).trans ?_
  rw [refHidden_row]
  rfl

/-- The reference's plain product is the row-by-row product. -/
theorem refDot_eq (h : FVec Ideal S100000x64 .f32) (W : FVec Ideal S64x64 .f32) :
    Host.dotGeneral dot_S100000x64_S64x64_S100000x64_1_0_0_1_n_n none h W = mmArr W h := by
  funext i
  obtain ⟨p, q, rfl⟩ : ∃ (p : Fin 100000) (q : Fin 64), i = ix2 p q := ⟨i 0, i 1, eq_ix2 i⟩
  exact hdot_apply dot_S100000x64_S64x64_S100000x64_1_0_0_1_n_n rfl h W p q

/-- The classifier's logits as the reference prints them. -/
def refLogits (h : FVec Ideal S100000x64 .f32) (Wl : FVec Ideal S64x40 .f32) (bl : FVec Ideal S40 .f32) : FVec Ideal S100000x40 .f32 :=
  addf (Host.dotGeneral dot_S100000x64_S64x40_S100000x40_1_0_0_1_n_n none h Wl)
    (broadcastInDim S100000x40 ![0, 1] Facts₀.bcast_S1x40_S100000x40_0_1 (broadcastInDim S1x40 ![1] Facts₀.bcast_S40_S1x40_1 bl))

theorem refLogits_row (h : FVec Ideal S100000x64 .f32) (Wl : FVec Ideal S64x40 .f32) (bl : FVec Ideal S40 .f32) (p : Fin 100000) :
    row (refLogits h Wl bl) p = fun j => dense Wl (row h p) j + biasOf bl j :=
  funext fun j => by
    show refLogits h Wl bl (ix2 p j) = _
    unfold refLogits
    rw [addf_apply, hdot_apply dot_S100000x64_S64x40_S100000x40_1_0_0_1_n_n rfl, hbias_apply]
    rfl

/-- The logarithm of the softmax along the rows as the reference prints it. -/
def refLsm (Z : FVec Ideal S100000x40 .f32) : FVec Ideal S100000x40 .f32 :=
  subf
    (subf Z (broadcastInDim S100000x40 ![0, 1] Facts₀.bcast_S100000x1_S100000x40_0_1 (broadcastInDim S100000x1 ![0] Facts₀.bcast_S100000_S100000x1_0
      (maximumf (broadcastInDim S100000 ![] Facts₀.bcast_S_S100000 (constant (F := Ideal) S_ .f32 0xFF800000#32))
        (Host.reduce FloatOps.maximumf Z (constant (F := Ideal) S_ .f32 0xFF800000#32) Facts₀.reducesTo_S100000x40_S100000_d1 Facts₀.h_S_)))))
    (broadcastInDim S100000x40 ![0, 1] Facts₀.bcast_S100000x1_S100000x40_0_1
      (Host.log (broadcastInDim S100000x1 ![0] Facts₀.bcast_S100000_S100000x1_0
        (Host.reduceAdd
          (Host.exp (subf Z (broadcastInDim S100000x40 ![0, 1] Facts₀.bcast_S100000x1_S100000x40_0_1 (broadcastInDim S100000x1 ![0] Facts₀.bcast_S100000_S100000x1_0
            (maximumf (broadcastInDim S100000 ![] Facts₀.bcast_S_S100000 (constant (F := Ideal) S_ .f32 0xFF800000#32))
              (Host.reduce FloatOps.maximumf Z (constant (F := Ideal) S_ .f32 0xFF800000#32) Facts₀.reducesTo_S100000x40_S100000_d1 Facts₀.h_S_))))))
          (constant (F := Ideal) S_ .f32 0x00000000#32) Facts₀.reducesTo_S100000x40_S100000_d1 Facts₀.h_S_))))

/-- The rows' reduction, as the shape relation the read-at-an-index lemmas name the inserted index by. -/
theorem reduces_rows : S100000x40.Reduces [1] S100000 := by decide

/-- The reference's classifier is the row-by-row classifier. -/
theorem refFin_eq (h : FVec Ideal S100000x64 .f32) (Wl : FVec Ideal S64x40 .f32) (bl : FVec Ideal S40 .f32) :
    refLsm (refLogits h Wl bl) = logProbs h Wl bl := by
  funext i
  obtain ⟨p, q, rfl⟩ : ∃ (p : Fin 100000) (q : Fin 40), i = ix2 p q := ⟨i 0, i 1, eq_ix2 i⟩
  unfold refLsm
  refine (hlsm_apply (refLogits h Wl bl) Facts₀.reducesTo_S100000x40_S100000_d1 reduces_rows Facts₀.h_S_ Facts₀.bcast_S_S100000
    Facts₀.bcast_S100000_S100000x1_0 Facts₀.bcast_S100000x1_S100000x40_0_1 p q).trans ?_
  rw [refLogits_row]
  rfl

/-! ## The segments read, from any contents before them -/

/-- Contents carried to a typed reference's buffer and back are the contents. -/
theorem ofBuf_toBuf {T : BufTy} (x : TRef sig T) (v : T.Contents (Elt Ideal)) : x.ofBuf (x.toBuf v) = v := by
  obtain ⟨ref, rfl, h1, h2⟩ := x
  rfl

/-! ### Typed references at literal buffers carry contents unchanged -/

theorem c_v36 (v : (⟨S100000, .f32⟩ : BufTy).Contents (Elt Ideal)) : (TRef.of (T := ⟨S100000, .f32⟩) main_v36).toBuf v = v := cast_eq _ _
theorem c_v34 (v : main_v34.ty.Contents (Elt Ideal)) : (TRef.of (T := ⟨S100000, .i1⟩) main_v34).ofBuf v = v := cast_eq _ _
theorem c_v35 (v : main_v35.ty.Contents (Elt Ideal)) : (TRef.of (T := ⟨S100000, .f32⟩) main_v35).ofBuf v = v := cast_eq _ _
theorem c_cst_4 (v : main_cst_4.ty.Contents (Elt Ideal)) : (TRef.of (T := ⟨S_, .f32⟩) main_cst_4).ofBuf v = v := cast_eq _ _
theorem c_v79 (v : (⟨S100000, .f32⟩ : BufTy).Contents (Elt Ideal)) : (TRef.of (T := ⟨S100000, .f32⟩) main_v79).toBuf v = v := cast_eq _ _
theorem c_v77 (v : main_v77.ty.Contents (Elt Ideal)) : (TRef.of (T := ⟨S100000, .i1⟩) main_v77).ofBuf v = v := cast_eq _ _
theorem c_v78 (v : main_v78.ty.Contents (Elt Ideal)) : (TRef.of (T := ⟨S100000, .f32⟩) main_v78).ofBuf v = v := cast_eq _ _
theorem c_cst_15 (v : main_cst_15.ty.Contents (Elt Ideal)) : (TRef.of (T := ⟨S_, .f32⟩) main_cst_15).ofBuf v = v := cast_eq _ _

variable (W : Valuation τ sig (Elt Ideal))

theorem segA_v13 : after segA W (Proc.devRef .tc main_v13) = agg (F := Ideal) (W (Proc.devRef .tc main_arg0)) (W (Proc.devRef .tc main_arg1)) := by
  dsimp only [segA]; fold_results <;> rfl
theorem segA_v1 : after segA W (Proc.devRef .tc main_v1) = srcOf (W (Proc.devRef .tc main_arg1)) := by
  dsimp only [segA]; fold_results <;> rfl
theorem segA_v3 : after segA W (Proc.devRef .tc main_v3) = dstOf (W (Proc.devRef .tc main_arg1)) := by
  dsimp only [segA]; fold_results <;> rfl

theorem segB_v24 : after segB W (Proc.devRef .tc main_v24)
    = refMlp (W (Proc.devRef .tc main_arg0)) (W (Proc.devRef .tc main_v13)) (W (Proc.devRef .tc main_arg2)) (W (Proc.devRef .tc main_arg3)) (W (Proc.devRef .tc main_arg4)) (W (Proc.devRef .tc main_arg5)) := by
  dsimp only [segB]; fold_results <;> rfl

theorem segC_v25 : after segC W (Proc.devRef .tc main_v25)
    = Host.dotGeneral (F := Ideal) (φ₁ := .f32) (φ₂ := .f32) dot_S100000x64_S64x64_S100000x64_1_0_0_1_n_n none ((W (Proc.devRef .tc main_v24)) : FVec Ideal S100000x64 .f32) ((W (Proc.devRef .tc main_arg6)) : FVec Ideal S64x64 .f32) := by
  dsimp only [segC]; fold_results <;> rfl

theorem segD_v51 : after segD W (Proc.devRef .tc main_v51) = normOf (F := Ideal) (withLoops (W (Proc.devRef .tc main_v1))) (withLoops (W (Proc.devRef .tc main_v3))) := by
  dsimp only [segD]; fold_results
  simp only [held2_def, ofBuf_toBuf, c_v36, c_v34, c_v35, c_cst_4]
  rfl
theorem segD_v27 : after segD W (Proc.devRef .tc main_v27) = withLoops (W (Proc.devRef .tc main_v1)) := by
  dsimp only [segD]; fold_results <;> rfl
theorem segD_v28 : after segD W (Proc.devRef .tc main_v28) = withLoops (W (Proc.devRef .tc main_v3)) := by
  dsimp only [segD]; fold_results <;> rfl

theorem segE_v67 : after segE W (Proc.devRef .tc main_v67)
    = convOf (F := Ideal) (W (Proc.devRef .tc main_v25)) (W (Proc.devRef .tc main_v27)) (W (Proc.devRef .tc main_v28)) (W (Proc.devRef .tc main_v51)) (W (Proc.devRef .tc main_arg7)) := by
  dsimp only [segE]; fold_results <;> rfl

theorem segF_v68 : after segF W (Proc.devRef .tc main_v68)
    = Host.dotGeneral (F := Ideal) (φ₁ := .f32) (φ₂ := .f32) dot_S100000x64_S64x64_S100000x64_1_0_0_1_n_n none ((W (Proc.devRef .tc main_v67)) : FVec Ideal S100000x64 .f32) ((W (Proc.devRef .tc main_arg8)) : FVec Ideal S64x64 .f32) := by
  dsimp only [segF]; fold_results <;> rfl

theorem segG_v94 : after segG W (Proc.devRef .tc main_v94) = normOf (F := Ideal) (withLoops (W (Proc.devRef .tc main_v1))) (withLoops (W (Proc.devRef .tc main_v3))) := by
  dsimp only [segG]; fold_results
  simp only [held2_def, ofBuf_toBuf, c_v79, c_v77, c_v78, c_cst_15]
  rfl
theorem segG_v70 : after segG W (Proc.devRef .tc main_v70) = withLoops (W (Proc.devRef .tc main_v1)) := by
  dsimp only [segG]; fold_results <;> rfl
theorem segG_v71 : after segG W (Proc.devRef .tc main_v71) = withLoops (W (Proc.devRef .tc main_v3)) := by
  dsimp only [segG]; fold_results <;> rfl

theorem segH_v110 : after segH W (Proc.devRef .tc main_v110)
    = convOf (F := Ideal) (W (Proc.devRef .tc main_v68)) (W (Proc.devRef .tc main_v70)) (W (Proc.devRef .tc main_v71)) (W (Proc.devRef .tc main_v94)) (W (Proc.devRef .tc main_arg9)) := by
  dsimp only [segH]; fold_results <;> rfl

theorem segI_v114 : after segI W (Proc.devRef .tc main_v114) = refLogits (W (Proc.devRef .tc main_v110)) (W (Proc.devRef .tc main_arg10)) (W (Proc.devRef .tc main_arg11)) := by
  dsimp only [segI]; fold_results <;> rfl

theorem segJ_v115 : after segJ W (Proc.devRef .tc main_v115) = refLsm (W (Proc.devRef .tc main_v114)) := by
  dsimp only [segJ]; fold_results
  simp only [held2_def, ofBuf_toBuf]
  rfl

/-! ## The contents at each segment boundary -/

abbrev R0 : Valuation τ sig (Elt Ideal) := W
abbrev R1 : Valuation τ sig (Elt Ideal) := after segA (R0 W)
abbrev R2 : Valuation τ sig (Elt Ideal) := after segB (R1 W)
abbrev R3 : Valuation τ sig (Elt Ideal) := after segC (R2 W)
abbrev R4 : Valuation τ sig (Elt Ideal) := after segD (R3 W)
abbrev R5 : Valuation τ sig (Elt Ideal) := after segE (R4 W)
abbrev R6 : Valuation τ sig (Elt Ideal) := after segF (R5 W)
abbrev R7 : Valuation τ sig (Elt Ideal) := after segG (R6 W)
abbrev R8 : Valuation τ sig (Elt Ideal) := after segH (R7 W)
abbrev R9 : Valuation τ sig (Elt Ideal) := after segI (R8 W)
abbrev R10 : Valuation τ sig (Elt Ideal) := after segJ (R9 W)

/-- The whole line's fold is the last boundary's contents. -/
theorem after_ops : after ops W = R10 W := by
  rw [ops_eq]
  simp only [after_append]

/-! ### A buffer no segment so far writes still holds its launch contents -/

theorem keep1 (b : Ref sig .tc) (hA : b ∉ (segA_W : List (Ref sig .tc))) :
    R1 W (Proc.devRef .tc b) = W (Proc.devRef .tc b) :=
  (segA_keep (R0 W) b hA).trans rfl
theorem keep2 (b : Ref sig .tc) (hA : b ∉ (segA_W : List (Ref sig .tc))) (hB : b ∉ (segB_W : List (Ref sig .tc))) :
    R2 W (Proc.devRef .tc b) = W (Proc.devRef .tc b) :=
  (segB_keep (R1 W) b hB).trans (keep1 W b hA)
theorem keep3 (b : Ref sig .tc) (hA : b ∉ (segA_W : List (Ref sig .tc))) (hB : b ∉ (segB_W : List (Ref sig .tc))) (hC : b ∉ (segC_W : List (Ref sig .tc))) :
    R3 W (Proc.devRef .tc b) = W (Proc.devRef .tc b) :=
  (segC_keep (R2 W) b hC).trans (keep2 W b hA hB)
theorem keep4 (b : Ref sig .tc) (hA : b ∉ (segA_W : List (Ref sig .tc))) (hB : b ∉ (segB_W : List (Ref sig .tc))) (hC : b ∉ (segC_W : List (Ref sig .tc))) (hD : b ∉ (segD_W : List (Ref sig .tc))) :
    R4 W (Proc.devRef .tc b) = W (Proc.devRef .tc b) :=
  (segD_keep (R3 W) b hD).trans (keep3 W b hA hB hC)
theorem keep5 (b : Ref sig .tc) (hA : b ∉ (segA_W : List (Ref sig .tc))) (hB : b ∉ (segB_W : List (Ref sig .tc))) (hC : b ∉ (segC_W : List (Ref sig .tc))) (hD : b ∉ (segD_W : List (Ref sig .tc))) (hE : b ∉ (segE_W : List (Ref sig .tc))) :
    R5 W (Proc.devRef .tc b) = W (Proc.devRef .tc b) :=
  (segE_keep (R4 W) b hE).trans (keep4 W b hA hB hC hD)
theorem keep6 (b : Ref sig .tc) (hA : b ∉ (segA_W : List (Ref sig .tc))) (hB : b ∉ (segB_W : List (Ref sig .tc))) (hC : b ∉ (segC_W : List (Ref sig .tc))) (hD : b ∉ (segD_W : List (Ref sig .tc))) (hE : b ∉ (segE_W : List (Ref sig .tc))) (hF : b ∉ (segF_W : List (Ref sig .tc))) :
    R6 W (Proc.devRef .tc b) = W (Proc.devRef .tc b) :=
  (segF_keep (R5 W) b hF).trans (keep5 W b hA hB hC hD hE)
theorem keep7 (b : Ref sig .tc) (hA : b ∉ (segA_W : List (Ref sig .tc))) (hB : b ∉ (segB_W : List (Ref sig .tc))) (hC : b ∉ (segC_W : List (Ref sig .tc))) (hD : b ∉ (segD_W : List (Ref sig .tc))) (hE : b ∉ (segE_W : List (Ref sig .tc))) (hF : b ∉ (segF_W : List (Ref sig .tc))) (hG : b ∉ (segG_W : List (Ref sig .tc))) :
    R7 W (Proc.devRef .tc b) = W (Proc.devRef .tc b) :=
  (segG_keep (R6 W) b hG).trans (keep6 W b hA hB hC hD hE hF)
theorem keep8 (b : Ref sig .tc) (hA : b ∉ (segA_W : List (Ref sig .tc))) (hB : b ∉ (segB_W : List (Ref sig .tc))) (hC : b ∉ (segC_W : List (Ref sig .tc))) (hD : b ∉ (segD_W : List (Ref sig .tc))) (hE : b ∉ (segE_W : List (Ref sig .tc))) (hF : b ∉ (segF_W : List (Ref sig .tc))) (hG : b ∉ (segG_W : List (Ref sig .tc))) (hH : b ∉ (segH_W : List (Ref sig .tc))) :
    R8 W (Proc.devRef .tc b) = W (Proc.devRef .tc b) :=
  (segH_keep (R7 W) b hH).trans (keep7 W b hA hB hC hD hE hF hG)
theorem keep9 (b : Ref sig .tc) (hA : b ∉ (segA_W : List (Ref sig .tc))) (hB : b ∉ (segB_W : List (Ref sig .tc))) (hC : b ∉ (segC_W : List (Ref sig .tc))) (hD : b ∉ (segD_W : List (Ref sig .tc))) (hE : b ∉ (segE_W : List (Ref sig .tc))) (hF : b ∉ (segF_W : List (Ref sig .tc))) (hG : b ∉ (segG_W : List (Ref sig .tc))) (hH : b ∉ (segH_W : List (Ref sig .tc))) (hI : b ∉ (segI_W : List (Ref sig .tc))) :
    R9 W (Proc.devRef .tc b) = W (Proc.devRef .tc b) :=
  (segI_keep (R8 W) b hI).trans (keep8 W b hA hB hC hD hE hF hG hH)
theorem keep10 (b : Ref sig .tc) (hA : b ∉ (segA_W : List (Ref sig .tc))) (hB : b ∉ (segB_W : List (Ref sig .tc))) (hC : b ∉ (segC_W : List (Ref sig .tc))) (hD : b ∉ (segD_W : List (Ref sig .tc))) (hE : b ∉ (segE_W : List (Ref sig .tc))) (hF : b ∉ (segF_W : List (Ref sig .tc))) (hG : b ∉ (segG_W : List (Ref sig .tc))) (hH : b ∉ (segH_W : List (Ref sig .tc))) (hI : b ∉ (segI_W : List (Ref sig .tc))) (hJ : b ∉ (segJ_W : List (Ref sig .tc))) :
    R10 W (Proc.devRef .tc b) = W (Proc.devRef .tc b) :=
  (segJ_keep (R9 W) b hJ).trans (keep9 W b hA hB hC hD hE hF hG hH hI)

/-! ### The values -/

/-- The launch contents of the arguments, by name. -/
abbrev a0 : FVec Ideal S100000x64 .f32 := W (Proc.devRef .tc main_arg0)
abbrev a1 : IVec S2x1600000 32 := W (Proc.devRef .tc main_arg1)
abbrev a2 : FVec Ideal S64x64 .f32 := W (Proc.devRef .tc main_arg2)
abbrev a3 : FVec Ideal S64 .f32 := W (Proc.devRef .tc main_arg3)
abbrev a4 : FVec Ideal S64x64 .f32 := W (Proc.devRef .tc main_arg4)
abbrev a5 : FVec Ideal S64 .f32 := W (Proc.devRef .tc main_arg5)
abbrev a6 : FVec Ideal S64x64 .f32 := W (Proc.devRef .tc main_arg6)
abbrev a7 : FVec Ideal S64 .f32 := W (Proc.devRef .tc main_arg7)
abbrev a8 : FVec Ideal S64x64 .f32 := W (Proc.devRef .tc main_arg8)
abbrev a9 : FVec Ideal S64 .f32 := W (Proc.devRef .tc main_arg9)
abbrev a10 : FVec Ideal S64x40 .f32 := W (Proc.devRef .tc main_arg10)
abbrev a11 : FVec Ideal S40 .f32 := W (Proc.devRef .tc main_arg11)

theorem R1_v1 : R1 W (Proc.devRef .tc main_v1) = srcOf (a1 W) := segA_v1 W
theorem R1_v3 : R1 W (Proc.devRef .tc main_v3) = dstOf (a1 W) := segA_v3 W
theorem R1_v13 : R1 W (Proc.devRef .tc main_v13) = agg (F := Ideal) (a0 W) (a1 W) := segA_v13 W

theorem R2_v24 : R2 W (Proc.devRef .tc main_v24) = hidden1 (a0 W) (a1 W) (a2 W) (a3 W) (a4 W) (a5 W) := by
  refine (segB_v24 (R1 W)).trans ?_
  rw [keep1 W main_arg0 (by decide), keep1 W main_arg2 (by decide), keep1 W main_arg3 (by decide), keep1 W main_arg4 (by decide),
    keep1 W main_arg5 (by decide), R1_v13, refMlp_eq]
  rfl

theorem R3_v25 : R3 W (Proc.devRef .tc main_v25) = mmArr (a6 W) (hidden1 (a0 W) (a1 W) (a2 W) (a3 W) (a4 W) (a5 W)) := by
  refine (segC_v25 (R2 W)).trans ?_
  rw [R2_v24, keep2 W main_arg6 (by decide) (by decide), refDot_eq]

theorem R3_v1 : R3 W (Proc.devRef .tc main_v1) = srcOf (a1 W) :=
  (segC_keep (R2 W) main_v1 (by decide)).trans ((segB_keep (R1 W) main_v1 (by decide)).trans (R1_v1 W))
theorem R3_v3 : R3 W (Proc.devRef .tc main_v3) = dstOf (a1 W) :=
  (segC_keep (R2 W) main_v3 (by decide)).trans ((segB_keep (R1 W) main_v3 (by decide)).trans (R1_v3 W))

theorem R4_v27 : R4 W (Proc.devRef .tc main_v27) = sOf (a1 W) := by
  refine (segD_v27 (R3 W)).trans ?_
  rw [R3_v1]; rfl
theorem R4_v28 : R4 W (Proc.devRef .tc main_v28) = dOf (a1 W) := by
  refine (segD_v28 (R3 W)).trans ?_
  rw [R3_v3]; rfl
theorem R4_v51 : R4 W (Proc.devRef .tc main_v51) = nrmOf (a1 W) := by
  refine (segD_v51 (R3 W)).trans ?_
  rw [R3_v1, R3_v3]; rfl
theorem R4_v25 : R4 W (Proc.devRef .tc main_v25) = mmArr (a6 W) (hidden1 (a0 W) (a1 W) (a2 W) (a3 W) (a4 W) (a5 W)) :=
  (segD_keep (R3 W) main_v25 (by decide)).trans (R3_v25 W)

theorem R5_v67 : R5 W (Proc.devRef .tc main_v67) = hidden2 (a0 W) (a1 W) (a2 W) (a3 W) (a4 W) (a5 W) (a6 W) (a7 W) := by
  refine (segE_v67 (R4 W)).trans ?_
  rw [R4_v25, R4_v27, R4_v28, R4_v51, keep4 W main_arg7 (by decide) (by decide) (by decide) (by decide)]
  rfl

theorem R6_v68 : R6 W (Proc.devRef .tc main_v68)
    = mmArr (a8 W) (hidden2 (a0 W) (a1 W) (a2 W) (a3 W) (a4 W) (a5 W) (a6 W) (a7 W)) := by
  refine (segF_v68 (R5 W)).trans ?_
  rw [R5_v67, keep5 W main_arg8 (by decide) (by decide) (by decide) (by decide) (by decide), refDot_eq]

theorem R6_v1 : R6 W (Proc.devRef .tc main_v1) = srcOf (a1 W) :=
  (segF_keep (R5 W) main_v1 (by decide)).trans ((segE_keep (R4 W) main_v1 (by decide)).trans ((segD_keep (R3 W) main_v1 (by decide)).trans (R3_v1 W)))
theorem R6_v3 : R6 W (Proc.devRef .tc main_v3) = dstOf (a1 W) :=
  (segF_keep (R5 W) main_v3 (by decide)).trans ((segE_keep (R4 W) main_v3 (by decide)).trans ((segD_keep (R3 W) main_v3 (by decide)).trans (R3_v3 W)))

theorem R7_v70 : R7 W (Proc.devRef .tc main_v70) = sOf (a1 W) := by
  refine (segG_v70 (R6 W)).trans ?_
  rw [R6_v1]; rfl
theorem R7_v71 : R7 W (Proc.devRef .tc main_v71) = dOf (a1 W) := by
  refine (segG_v71 (R6 W)).trans ?_
  rw [R6_v3]; rfl
theorem R7_v94 : R7 W (Proc.devRef .tc main_v94) = nrmOf (a1 W) := by
  refine (segG_v94 (R6 W)).trans ?_
  rw [R6_v1, R6_v3]; rfl
theorem R7_v68 : R7 W (Proc.devRef .tc main_v68)
    = mmArr (a8 W) (hidden2 (a0 W) (a1 W) (a2 W) (a3 W) (a4 W) (a5 W) (a6 W) (a7 W)) :=
  (segG_keep (R6 W) main_v68 (by decide)).trans (R6_v68 W)

theorem R8_v110 : R8 W (Proc.devRef .tc main_v110)
    = embed (a0 W) (a1 W) (a2 W) (a3 W) (a4 W) (a5 W) (a6 W) (a7 W) (a8 W) (a9 W) := by
  refine (segH_v110 (R7 W)).trans ?_
  rw [R7_v68, R7_v70, R7_v71, R7_v94, keep7 W main_arg9 (by decide) (by decide) (by decide) (by decide) (by decide) (by decide) (by decide)]
  rfl

theorem R9_v114 : R9 W (Proc.devRef .tc main_v114)
    = refLogits (embed (a0 W) (a1 W) (a2 W) (a3 W) (a4 W) (a5 W) (a6 W) (a7 W) (a8 W) (a9 W)) (a10 W) (a11 W) := by
  refine (segI_v114 (R8 W)).trans ?_
  rw [R8_v110, keep8 W main_arg10 (by decide) (by decide) (by decide) (by decide) (by decide) (by decide) (by decide) (by decide), keep8 W main_arg11 (by decide) (by decide) (by decide) (by decide) (by decide) (by decide) (by decide) (by decide)]

/-- The embedding buffer after the whole line. -/
theorem R10_v110 : R10 W (Proc.devRef .tc main_v110)
    = embed (a0 W) (a1 W) (a2 W) (a3 W) (a4 W) (a5 W) (a6 W) (a7 W) (a8 W) (a9 W) :=
  (segJ_keep (R9 W) main_v110 (by decide)).trans ((segI_keep (R8 W) main_v110 (by decide)).trans (R8_v110 W))

/-- The log-probability buffer after the whole line. -/
theorem R10_v115 : R10 W (Proc.devRef .tc main_v115)
    = logProbs (embed (a0 W) (a1 W) (a2 W) (a3 W) (a4 W) (a5 W) (a6 W) (a7 W) (a8 W) (a9 W)) (a10 W) (a11 W) := by
  refine (segJ_v115 (R9 W)).trans ?_
  rw [R9_v114, refFin_eq]

/-- No segment writes an argument. -/
theorem R10_arg (b : Ref sig .tc) (hA : b ∉ (segA_W : List (Ref sig .tc))) (hB : b ∉ (segB_W : List (Ref sig .tc))) (hC : b ∉ (segC_W : List (Ref sig .tc))) (hD : b ∉ (segD_W : List (Ref sig .tc))) (hE : b ∉ (segE_W : List (Ref sig .tc))) (hF : b ∉ (segF_W : List (Ref sig .tc))) (hG : b ∉ (segG_W : List (Ref sig .tc))) (hH : b ∉ (segH_W : List (Ref sig .tc))) (hI : b ∉ (segI_W : List (Ref sig .tc))) (hJ : b ∉ (segJ_W : List (Ref sig .tc))) :
    R10 W (Proc.devRef .tc b) = W (Proc.devRef .tc b) := keep10 W b hA hB hC hD hE hF hG hH hI hJ

end Cert.ReferenceIdeal.RefValue

end
-- ==== Proof.Claims.lean ====
/-
  The two programs' runs with their results named, and the claims.

  Both runs end with the embedding buffer at `Net.embed` of the arguments and the log-probability buffer at
  `Net.logProbs` of that embedding (KValue.lean for the kernel program, over its frame run with the result buffers kept;
  RefValue.lean for the reference, over its run as a fold), the arguments unchanged. From memories that agree on the
  arguments the two pairs of results are therefore equal. No law of arithmetic beyond the reading of each operation is
  used: the two programs compute the same expression, the kernel program block by block.
-/
import proofs.«100351_j78898549227759_1_alg».proof.Defs
import proofs.«100351_j78898549227759_1_alg».proof.Proof.Gen.Kernel.Frame
import proofs.«100351_j78898549227759_1_alg».proof.Proof.Gen.Pre_finite_inputs
import proofs.«100351_j78898549227759_1_alg».proof.Proof.FrameResults
import proofs.«100351_j78898549227759_1_alg».proof.Proof.KValue
import proofs.«100351_j78898549227759_1_alg».proof.Proof.RefValue

noncomputable section

namespace Cert.Proof.Claims

open Idealize.ShloMosaic Idealize.ShloMosaic.TcCoe Idealize.SL.Sem

/-- The kernel program's run with both results named. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v78) = (Cert.Net.logProbs (Cert.Net.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
        ∧ r.2.mem ((c.tc : Thread Cert.KernelIdeal.nD Cert.KernelIdeal.τ).loc Cert.KernelIdeal.main_v76) = (Cert.Net.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono
    (fun r h c => ⟨(h c).1.trans (Cert.KernelIdeal.KValue.W10_v78 m ρ c), (h c).2.1.trans (Cert.KernelIdeal.KValue.W10_v76 m ρ c), (h c).2.2⟩)
    (Cert.KernelIdeal.Gen.frame_results m ρ)

/-- The reference program's run with both results named. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v115) = (Cert.Net.logProbs (Cert.Net.embed (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)))
        ∧ r.2.mem ((c.tc : Thread Cert.ReferenceIdeal.nD Cert.ReferenceIdeal.τ).loc Cert.ReferenceIdeal.main_v110) = (Cert.Net.embed (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono
    (fun r h c =>
      ⟨(h c Cert.ReferenceIdeal.main_v115).trans ((congrFun (Cert.ReferenceIdeal.RefValue.after_ops (StableHlo.launchContents m c)) _).trans
          (Cert.ReferenceIdeal.RefValue.R10_v115 (StableHlo.launchContents m c))),
       (h c Cert.ReferenceIdeal.main_v110).trans ((congrFun (Cert.ReferenceIdeal.RefValue.after_ops (StableHlo.launchContents m c)) _).trans
          (Cert.ReferenceIdeal.RefValue.R10_v110 (StableHlo.launchContents m c))),
       (h c Cert.ReferenceIdeal.main_arg0).trans ((congrFun (Cert.ReferenceIdeal.RefValue.after_ops (StableHlo.launchContents m c)) _).trans
          (Cert.ReferenceIdeal.RefValue.R10_arg (StableHlo.launchContents m c) Cert.ReferenceIdeal.main_arg0 (by decide) (by decide) (by decide) (by decide) (by decide) (by decide) (by decide) (by decide) (by decide) (by decide))),
       (h c Cert.ReferenceIdeal.main_arg1).trans ((congrFun (Cert.ReferenceIdeal.RefValue.after_ops (StableHlo.launchContents m c)) _).trans
          (Cert.ReferenceIdeal.RefValue.R10_arg (StableHlo.launchContents m c) Cert.ReferenceIdeal.main_arg1 (by decide) (by decide) (by decide) (by decide) (by decide) (by decide) (by decide) (by decide) (by decide) (by decide))),
       (h c Cert.ReferenceIdeal.main_arg2).trans ((congrFun (Cert.ReferenceIdeal.RefValue.after_ops (StableHlo.launchContents m c)) _).trans
          (Cert.ReferenceIdeal.RefValue.R10_arg (StableHlo.launchContents m c) Cert.ReferenceIdeal.main_arg2 (by decide) (by decide) (by decide) (by decide) (by decide) (by decide) (by decide) (by decide) (by decide) (by decide))),
       (h c Cert.ReferenceIdeal.main_arg3).trans ((congrFun (Cert.ReferenceIdeal.RefValue.after_ops (StableHlo.launchContents m c)) _).trans
          (Cert.ReferenceIdeal.RefValue.R10_arg (StableHlo.launchContents m c) Cert.ReferenceIdeal.main_arg3 (by decide) (by decide) (by decide) (by decide) (by decide) (by decide) (by decide) (by decide) (by decide) (by decide))),
       (h c Cert.ReferenceIdeal.main_arg4).trans ((congrFun (Cert.ReferenceIdeal.RefValue.after_ops (StableHlo.launchContents m c)) _).trans
          (Cert.ReferenceIdeal.RefValue.R10_arg (StableHlo.launchContents m c) Cert.ReferenceIdeal.main_arg4 (by decide) (by decide) (by decide) (by decide) (by decide) (by decide) (by decide) (by decide) (by decide) (by decide))),
       (h c Cert.ReferenceIdeal.main_arg5).trans ((congrFun (Cert.ReferenceIdeal.RefValue.after_ops (StableHlo.launchContents m c)) _).trans
          (Cert.ReferenceIdeal.RefValue.R10_arg (StableHlo.launchContents m c) Cert.ReferenceIdeal.main_arg5 (by decide) (by decide) (by decide) (by decide) (by decide) (by decide) (by decide) (by decide) (by decide) (by decide))),
       (h c Cert.ReferenceIdeal.main_arg6).trans ((congrFun (Cert.ReferenceIdeal.RefValue.after_ops (StableHlo.launchContents m c)) _).trans
          (Cert.ReferenceIdeal.RefValue.R10_arg (StableHlo.launchContents m c) Cert.ReferenceIdeal.main_arg6 (by decide) (by decide) (by decide) (by decide) (by decide) (by decide) (by decide) (by decide) (by decide) (by decide))),
       (h c Cert.ReferenceIdeal.main_arg7).trans ((congrFun (Cert.ReferenceIdeal.RefValue.after_ops (StableHlo.launchContents m c)) _).trans
          (Cert.ReferenceIdeal.RefValue.R10_arg (StableHlo.launchContents m c) Cert.ReferenceIdeal.main_arg7 (by decide) (by decide) (by decide) (by decide) (by decide) (by decide) (by decide) (by decide) (by decide) (by decide))),
       (h c Cert.ReferenceIdeal.main_arg8).trans ((congrFun (Cert.ReferenceIdeal.RefValue.after_ops (StableHlo.launchContents m c)) _).trans
          (Cert.ReferenceIdeal.RefValue.R10_arg (StableHlo.launchContents m c) Cert.ReferenceIdeal.main_arg8 (by decide) (by decide) (by decide) (by decide) (by decide) (by decide) (by decide) (by decide) (by decide) (by decide))),
       (h c Cert.ReferenceIdeal.main_arg9).trans ((congrFun (Cert.ReferenceIdeal.RefValue.after_ops (StableHlo.launchContents m c)) _).trans
          (Cert.ReferenceIdeal.RefValue.R10_arg (StableHlo.launchContents m c) Cert.ReferenceIdeal.main_arg9 (by decide) (by decide) (by decide) (by decide) (by decide) (by decide) (by decide) (by decide) (by decide) (by decide))),
       (h c Cert.ReferenceIdeal.main_arg10).trans ((congrFun (Cert.ReferenceIdeal.RefValue.after_ops (StableHlo.launchContents m c)) _).trans
          (Cert.ReferenceIdeal.RefValue.R10_arg (StableHlo.launchContents m c) Cert.ReferenceIdeal.main_arg10 (by decide) (by decide) (by decide) (by decide) (by decide) (by decide) (by decide) (by decide) (by decide) (by decide))),
       (h c Cert.ReferenceIdeal.main_arg11).trans ((congrFun (Cert.ReferenceIdeal.RefValue.after_ops (StableHlo.launchContents m c)) _).trans
          (Cert.ReferenceIdeal.RefValue.R10_arg (StableHlo.launchContents m c) Cert.ReferenceIdeal.main_arg11 (by decide) (by decide) (by decide) (by decide) (by decide) (by decide) (by decide) (by decide) (by decide) (by decide)))⟩)
    (Cert.ReferenceIdeal.Fold.run_fold m ρ)

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run (Cert.ReferenceIdeal.defs (F := Ideal)) _ _).mono (fun _ h c => (h c).2.2) (reference_run m ρ)

/-- The ideal pass rewrote nothing, so there is nothing to preserve. -/
theorem preserves : Cert.preserves_Kernel_KernelIdeal := trivial

/-- From memories agreeing on the arguments both programs end with the same two results. -/
theorem algebraic : Cert.algebraic_KernelIdeal_ReferenceIdeal := by
  intro m ρ m' ρ' _ hagree
  refine ⟨_, _, kernel_run m ρ, ?_⟩
  refine (θ_run (Cert.ReferenceIdeal.defs (F := Ideal)) _ _).mono (fun r h c => ?_) (reference_run m' ρ')
  obtain ⟨h0, h1, hargs⟩ := h c
  obtain ⟨e0, e1, e2, e3, e4, e5, e6, e7, e8, e9, e10, e11⟩ := hagree c
  refine ⟨h0.trans ?_, h1.trans ?_, hargs⟩
  · rw [e0, e1, e2, e3, e4, e5, e6, e7, e8, e9, e10, e11]
  · rw [e0, e1, e2, e3, e4, e5, e6, e7, e8, e9]

end Cert.Proof.Claims

end
-- ==== Proof.lean ====
/-
  The certificate of a three-layer graph network (a GIN perceptron layer, two graph convolutions, a classifier with
  log-softmax) over 100000 nodes and 1600000 edges: a program whose four dense stages are Pallas kernels tiled over blocks
  of 4000 nodes, with the edge gathers and scatter-adds on the host, against a plain jnp reference.

  Over the extended reals both programs compute one expression of the arguments (Proof/Spec.lean): a kernel's product of
  bf16-rounded blocks into a zero accumulator is the reference's `dot_general` on the block's rows, a kernel's one-row bias
  repeated down a block is the reference's broadcast vector, the lane reductions of the kernel's log-softmax are the
  reference's `reduce`s, and the host operations between the dense stages are the same in both programs. The kernel program
  computes its degree normalization once and the reference once per convolution: the same function of the edge list.
  No precondition is used beyond what the frames take.

  Proof/Claims.lean assembles the five claims; the witnesses of the programs' stated facts are the generated ones.
-/
import proofs.«100351_j78898549227759_1_alg».proof.Defs
import proofs.«100351_j78898549227759_1_alg».proof.Proof.Gen.Kernel
import proofs.«100351_j78898549227759_1_alg».proof.Proof.Gen.Kernel.Skeleton
import proofs.«100351_j78898549227759_1_alg».proof.Proof.Gen.Kernel.Launch
import proofs.«100351_j78898549227759_1_alg».proof.Proof.Gen.Kernel.Points
import proofs.«100351_j78898549227759_1_alg».proof.Proof.Gen.Kernel.Frame
import proofs.«100351_j78898549227759_1_alg».proof.Proof.Gen.KernelIdeal
import proofs.«100351_j78898549227759_1_alg».proof.Proof.Gen.KernelIdeal.Skeleton
import proofs.«100351_j78898549227759_1_alg».proof.Proof.Gen.KernelIdeal.Launch
import proofs.«100351_j78898549227759_1_alg».proof.Proof.Gen.KernelIdeal.Points
import proofs.«100351_j78898549227759_1_alg».proof.Proof.Gen.KernelIdeal.Frame
import proofs.«100351_j78898549227759_1_alg».proof.Proof.Gen.ReferenceIdeal
import proofs.«100351_j78898549227759_1_alg».proof.Proof.Gen.Pre_finite_inputs
import proofs.«100351_j78898549227759_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernelIdeal, Cert.Proof.Claims.frame_referenceIdeal,
  Cert.Proof.Claims.preserves, Cert.Proof.Claims.algebraic⟩

end Cert.Proof

end
